-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S2x200000 : Shape := ⟨2, ![2, 200000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S256x128 .f32) (main_arg10 : FVec F S128 .f32) (main_arg11 : FVec F S128 .f32) (main_arg12 : FVec F S128 .f32) (main_arg13 : FVec F S128 .f32) (main_arg14 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x256 .f32) (main_arg8 : FVec F S256 .f32) (main_arg9 : FVec F S256x128 .f32) (main_arg10 : FVec F S128 .f32) (main_arg11 : FVec F S128 .f32) (main_arg12 : FVec F S128 .f32) (main_arg13 : FVec F S128 .f32) (main_arg14 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x600000 32) (main_arg2 : IVec S2x200000 32) (main_arg3 : FVec F S128x256 .f32) (main_arg4 : FVec F S256 .f32) (main_arg5 : FVec F S256x128 .f32) (main_arg6 : FVec F S128 .f32) (main_arg7 : FVec F S128x256 .f32) (main_arg8 : FVec F S256 .f32) (main_arg9 : FVec F S256x128 .f32) (main_arg10 : FVec F S128 .f32) (main_arg11 : FVec F S128 .f32) (main_arg12 : FVec F S128 .f32) (main_arg13 : FVec F S128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x600000 : Shape := ⟨2, ![2, 600000]⟩
abbrev S2x200000 : Shape := ⟨2, ![2, 200000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x256 : Shape := ⟨2, ![1, 256]⟩
abbrev S1x128 : Shape := ⟨2, ![1, 128]⟩
abbrev S5000x128 : Shape := ⟨2, ![5000, 128]⟩
abbrev S5000x256 : Shape := ⟨2, ![5000, 256]⟩
abbrev S10000x128 : Shape := ⟨2, ![10000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S10000x1 : Shape := ⟨2, ![10000, 1]⟩
abbrev S10000 : Shape := ⟨1, ![10000]⟩

abbrev nBuf : Space → Nat
  | .hbm => 123
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S2x200000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S100000x128, .f32⟩
  | .hbm, ⟨30, _⟩ => ⟨S600000x1, .i32⟩
  | .hbm, ⟨31, _⟩ => ⟨S100000x128, .f32⟩
  | .hbm, ⟨32, _⟩ => ⟨S100000x128, .f32⟩
  | .hbm, ⟨33, _⟩ => ⟨S1x256, .f32⟩
  | .hbm, ⟨34, _⟩ => ⟨S1x128, .f32⟩
  | .hbm, ⟨35, _⟩ => ⟨S100000x128, .f32⟩
  | .hbm, ⟨36, _⟩ => ⟨S_, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .f32⟩
  | .hbm, ⟨68, _⟩ => ⟨S_, .f32⟩
  | .hbm, ⟨69, _⟩ => ⟨S100000x128, .f32⟩
  | .hbm, ⟨70, _⟩ => ⟨S600000x1, .i32⟩
  | .hbm, ⟨71, _⟩ => ⟨S100000x128, .f32⟩
  | .hbm, ⟨72, _⟩ => ⟨S100000x128, .f32⟩
  | .hbm, ⟨73, _⟩ => ⟨S1x256, .f32⟩
  | .hbm, ⟨74, _⟩ => ⟨S1x128, .f32⟩
  | .hbm, ⟨75, _⟩ => ⟨S100000x128, .f32⟩
  | .hbm, ⟨76, _⟩ => ⟨S_, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S100000x128, .f32⟩
  | .hbm, ⟨99, _⟩ => ⟨S1x200000, .i32⟩
  | .hbm, ⟨100, _⟩ => ⟨S200000, .i32⟩
  | .hbm, ⟨101, _⟩ => ⟨S_, .i32⟩
  | .hbm, ⟨102, _⟩ => ⟨S200000, .i32⟩
  | .hbm, ⟨103, _⟩ => ⟨S200000, .i1⟩
  | .hbm, ⟨104, _⟩ => ⟨S_, .i32⟩
  | .hbm, ⟨105, _⟩ => ⟨S200000, .i32⟩
  | .hbm, ⟨106, _⟩ => ⟨S200000, .i32⟩
  | .hbm, ⟨107, _⟩ => ⟨S200000, .i32⟩
  | .hbm, ⟨108, _⟩ => ⟨S200000x1, .i32⟩
  | .hbm, ⟨109, _⟩ => ⟨S200000x128, .f32⟩
  | .hbm, ⟨110, _⟩ => ⟨S1x200000, .i32⟩
  | .hbm, ⟨111, _⟩ => ⟨S200000, .i32⟩
  | .hbm, ⟨112, _⟩ => ⟨S_, .i32⟩
  | .hbm, ⟨113, _⟩ => ⟨S200000, .i32⟩
  | .hbm, ⟨114, _⟩ => ⟨S200000, .i1⟩
  | .hbm, ⟨115, _⟩ => ⟨S_, .i32⟩
  | .hbm, ⟨116, _⟩ => ⟨S200000, .i32⟩
  | .hbm, ⟨117, _⟩ => ⟨S200000, .i32⟩
  | .hbm, ⟨118, _⟩ => ⟨S200000, .i32⟩
  | .hbm, ⟨119, _⟩ => ⟨S200000x1, .i32⟩
  | .hbm, ⟨120, _⟩ => ⟨S200000x128, .f32⟩
  | .hbm, ⟨121, _⟩ => ⟨S200000x1, .f32⟩
  | .hbm, ⟨122, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S5000x128, .f32⟩
  | .local _ .vmem, ⟨17, _⟩ => ⟨S5000x128, .f32⟩
  | .local _ .vmem, ⟨18, _⟩ => ⟨S128x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x1, .f32⟩
  | .local _ .vmem, ⟨37, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_16 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  gather_S100000x128_S200000x1_S200000x128_1_0_n_n_0_1_1128_wf : GatherDims.WF S100000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S200000x128.size a
  hwx4_0 : ∀ i : grid4.Coords, EltTy.bits .f32 = 32 ∨ (Rect.block (s := S200000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S200000x128.size a
  hwx4_1 : ∀ i : grid4.Coords, EltTy.bits .f32 = 32 ∨ (Rect.block (s := S200000x128) S10000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S200000x1.size a
  hwx4_2 : ∀ i : grid4.Coords, EltTy.bits .f32 = 32 ∨ (Rect.block (s := S200000x1) S10000x1.size (cc4_transform_2 i) (hinb4_2 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v86) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S2x200000 : Shape := ⟨2, ![2, 200000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x256 : Shape := ⟨2, ![100000, 256]⟩
abbrev S1x256 : Shape := ⟨2, ![1, 256]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x600000, .i32⟩
  | 2 => ⟨S2x200000, .i32⟩
  | 3 => ⟨S128x256, .f32⟩
  | 4 => ⟨S256, .f32⟩
  | 5 => ⟨S256x128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128, .f32⟩
  | 12 => ⟨S128, .f32⟩
  | 13 => ⟨S128, .f32⟩
  | 14 => ⟨S128, .f32⟩
  | 15 => ⟨S1x600000, .i32⟩
  | 16 => ⟨S600000, .i32⟩
  | 17 => ⟨S1x600000, .i32⟩
  | 18 => ⟨S600000, .i32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .f32⟩
  | 29 => ⟨S100000x128, .f32⟩
  | 30 => ⟨S600000x1, .i32⟩
  | 31 => ⟨S100000x128, .f32⟩
  | 32 => ⟨S100000x128, .f32⟩
  | 33 => ⟨S100000x256, .f32⟩
  | 34 => ⟨S1x256, .f32⟩
  | 35 => ⟨S100000x256, .f32⟩
  | 36 => ⟨S100000x256, .f32⟩
  | 37 => ⟨S_, .f32⟩
  | 38 => ⟨S100000x256, .f32⟩
  | 39 => ⟨S100000x256, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S128, .f32⟩
  | 46 => ⟨S_, .f32⟩
  | 47 => ⟨S128, .f32⟩
  | 48 => ⟨S128, .f32⟩
  | 49 => ⟨S1x128, .f32⟩
  | 50 => ⟨S100000x128, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S_, .f32⟩
  | 87 => ⟨S100000x128, .f32⟩
  | 88 => ⟨S600000x1, .i32⟩
  | 89 => ⟨S100000x128, .f32⟩
  | 90 => ⟨S100000x128, .f32⟩
  | 91 => ⟨S100000x256, .f32⟩
  | 92 => ⟨S1x256, .f32⟩
  | 93 => ⟨S100000x256, .f32⟩
  | 94 => ⟨S100000x256, .f32⟩
  | 95 => ⟨S_, .f32⟩
  | 96 => ⟨S100000x256, .f32⟩
  | 97 => ⟨S100000x256, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S_, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S100000x128, .f32⟩
  | 111 => ⟨S_, .f32⟩
  | 112 => ⟨S128, .f32⟩
  | 113 => ⟨S_, .f32⟩
  | 114 => ⟨S128, .f32⟩
  | 115 => ⟨S128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S128, .f32⟩
  | 125 => ⟨S128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S1x200000, .i32⟩
  | 5 => ⟨S200000, .i32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x128, .f32⟩
  | 15 => ⟨S1x200000, .i32⟩
  | 16 => ⟨S200000, .i32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000x128, .f32⟩
  | 26 => ⟨S200000x128, .f32⟩
  | 27 => ⟨S_, .f32⟩
  | 28 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_c_6 : Ref sig .tc := ⟨.hbm, 77, rfl⟩
abbrev main_v50 : Ref sig .tc := ⟨.hbm, 78, rfl⟩
abbrev main_v51 : Ref sig .tc := ⟨.hbm, 79, rfl⟩
abbrev main_c_7 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_cst : Ref sig .tc := ⟨.hbm, 95, rfl⟩
abbrev main_call2_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_9 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_11 : Ref sig .tc := ⟨.hbm, 111, rfl⟩
abbrev main_v77 : Ref sig .tc := ⟨.hbm, 112, rfl⟩
abbrev main_cst_12 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_13 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_14 : Ref sig .tc := ⟨.hbm, 134, rfl⟩
abbrev main_v97 : Ref sig .tc := ⟨.hbm, 135, rfl⟩
abbrev main_v98 : Ref sig .tc := ⟨.hbm, 136, rfl⟩
abbrev main_c_15 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_c_16 : Ref sig .tc := ⟨.hbm, 145, rfl⟩
abbrev main_v106 : Ref sig .tc := ⟨.hbm, 146, rfl⟩
abbrev main_v107 : Ref sig .tc := ⟨.hbm, 147, rfl⟩
abbrev main_c_17 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_18 : Ref sig .tc := ⟨.hbm, 155, rfl⟩
abbrev main_v114 : Ref sig .tc := ⟨.hbm, 156, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  gather_S100000x128_S200000x1_S200000x128_1_0_n_n_0_1_1128_wf : GatherDims.WF S100000x128 S200000x1 S200000x128 [1] [0] [] [0] [] 1 ![1, 128]

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

class Facts : Prop extends Facts₀ where

variable [Facts]
-- ==== Proof.KRun.lean ====
/-
  The idealized kernel's run with its result named.

  The program is five kernel launches among six stretches of host operations.  Every weakly fair execution from a
  memory with zero counters terminates without a fault, and on every core the result buffer ends holding what the
  last stretch of host operations leaves in it — the fold of the six stretches and the five launches' write-backs
  over the launch memory, `W11` — while the fifteen argument arrays end as launched.  The contents of the unscoped
  buffers after the last segment are read against the final state, the result buffer among them.
-/
import proofs.«108490_j24395414241389_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's
    contents and the arguments as launched. -/
theorem run_named : θ_run defs (onTc (τ := τ) (main (F := F))) ⟨m, fun _ => 0, ρ⟩ (fun r => ∀ c : Dev nD,
      r.2.mem ((c.tc : Thread nD τ).loc main_v87) = W11 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v87 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c)⟩)

end Cert.KernelIdeal.Named

end
-- ==== Proof.LibFoldBias.lean ====
/-
  A two-layer perceptron row with part of its input constant.

  One row of a two-layer perceptron with a rectifier between the layers: from inputs `X k`, `k < K`, the hidden
  unit `l` is `max (∑ k, X k * W1 k l + b1 l) 0` and the output `q` is `∑ l, hidden l * W2 l q + b2 q`.

  If the `N = A + B` inputs fall into a first part of length `A` and a last part `g` of length `B`, the last part's
  contribution `∑ k, g k * W1 (A + k) l` to hidden unit `l` can be added to the bias `b1 l` once, and the
  perceptron run on the first part alone against the first `A` rows of `W1`: the two pre-activations differ only
  in the order and grouping of one finite sum, and addition on the extended reals is commutative and associative
  (no finiteness is needed: nothing is distributed or cancelled).
-/
import Mathlib.Algebra.BigOperators.Fin
import Mathlib.Data.EReal.Operations

open scoped BigOperators

namespace Cert.LibFoldBias

/-- A sum over `N = A + B` indices is the sum over the first `A` plus the sum over the last `B`. -/
theorem sum_split {M : Type*} [AddCommMonoid M] {A B N : Nat} (hN : N = A + B) (f : Fin N → M) :
    ∑ k : Fin N, f k = (∑ k : Fin A, f ⟨k.val, by omega⟩) + ∑ k : Fin B, f ⟨A + k.val, by omega⟩ := by
  subst hN
  rw [Fin.sum_univ_add]
  rfl

/-- Output `q` of one row of a two-layer perceptron with a rectifier between the layers. -/
noncomputable def rowMLP {K L C : Nat} (X : Fin K → EReal) (W1 : Fin K → Fin L → EReal) (b1 : Fin L → EReal)
    (W2 : Fin L → Fin C → EReal) (b2 : Fin C → EReal) (q : Fin C) : EReal :=
  (∑ l : Fin L, max ((∑ k : Fin K, X k * W1 k l) + b1 l) 0 * W2 l q) + b2 q

/-- THE FOLD: the perceptron on the first `A` inputs, against the first `A` rows of the first layer and the bias
    enlarged by the last `B` inputs' contribution, is the perceptron on all `N = A + B` inputs. -/
theorem rowMLP_fold {A B N L C : Nat} (hN : N = A + B)
    (XR : Fin N → EReal) (XK : Fin A → EReal) (g : Fin B → EReal)
    (W1 : Fin N → Fin L → EReal) (W1s : Fin A → Fin L → EReal) (b1 b1' : Fin L → EReal)
    (W2 : Fin L → Fin C → EReal) (b2 : Fin C → EReal) (q : Fin C)
    (hX : ∀ k : Fin A, XR ⟨k.val, by omega⟩ = XK k) (hg : ∀ k : Fin B, XR ⟨A + k.val, by omega⟩ = g k)
    (hW : ∀ (k : Fin A) (l : Fin L), W1 ⟨k.val, by omega⟩ l = W1s k l)
    (hb : ∀ l : Fin L, b1' l = b1 l + ∑ k : Fin B, g k * W1 ⟨A + k.val, by omega⟩ l) :
    rowMLP XK W1s b1' W2 b2 q = rowMLP XR W1 b1 W2 b2 q := by
  unfold rowMLP
  refine congrArg (· + b2 q) (Finset.sum_congr rfl fun l _ => ?_)
  refine congrArg (fun y => max y 0 * W2 l q) ?_
  rw [sum_split hN (fun k => XR k * W1 k l), hb l,
    Finset.sum_congr rfl (fun k _ => by rw [hX k, hW k l] : ∀ k ∈ (Finset.univ : Finset (Fin A)),
      XR ⟨k.val, by omega⟩ * W1 ⟨k.val, by omega⟩ l = XK k * W1s k l),
    Finset.sum_congr rfl (fun k _ => by rw [hg k] : ∀ k ∈ (Finset.univ : Finset (Fin B)),
      XR ⟨A + k.val, by omega⟩ * W1 ⟨A + k.val, by omega⟩ l = g k * W1 ⟨A + k.val, by omega⟩ l),
    add_assoc, add_comm (b1 l)]

end Cert.LibFoldBias
-- ==== Proof.Spec.lean ====
/-
  The three layers of the graph network as functions of whole arrays, index by index.

  * `mlp`: every row of an `[R, K]` array goes through a two-layer perceptron with a rectifier between the
    layers; entry `(p, q)` is output `q` of the perceptron run on row `p` (the biases given as rows `[1, L]`,
    `[1, C]`).
  * `norm` / `normRelu`: the batch normalisation's affine map, column by column: entry `(p, q)` is
    `(g q * (h (p, q) - mean q)) * inv q + b q`, the four column statistics given as rows `[1, C]`; `normRelu`
    takes the maximum with zero afterwards.
  * `rowDot` / `dotRows`: the dot product of row `p` of two arrays, kept as a column `[R, 1]` or as a vector `[R]`.

  Each is stated for any number of rows: an entry of a layer's result reads only its own row of the input besides the
  small operands, so a block of rows of the result is the same layer of that block of rows of the input.
-/
import proofs.«108490_j24395414241389_1_alg».proof.Proof.LibFoldBias
import Idealize.ShloMosaic.PureOps.Ideal
import Idealize.ShloMosaic.Lib.ValueIdx

noncomputable section

open scoped BigOperators

namespace Cert.GinSpec

open Idealize.ShloMosaic Idealize.ShloMosaic.ValueIdx Cert.LibFoldBias

variable {R K L C : Nat}

/-- The perceptron layer over the rows of `X`. -/
def mlp (X : FVec Ideal ⟨2, ![R, K]⟩ .f32) (W1 : FVec Ideal ⟨2, ![K, L]⟩ .f32) (b1 : FVec Ideal ⟨2, ![1, L]⟩ .f32)
    (W2 : FVec Ideal ⟨2, ![L, C]⟩ .f32) (b2 : FVec Ideal ⟨2, ![1, C]⟩ .f32) : FVec Ideal ⟨2, ![R, C]⟩ .f32 :=
  fun i => rowMLP (fun k => X (ix2 (i 0) k)) (fun k l => W1 (ix2 k l)) (fun l => b1 (ix2 (0 : Fin 1) l))
    (fun l q => W2 (ix2 l q)) (fun q => b2 (ix2 (0 : Fin 1) q)) (i 1)

theorem mlp_apply (X : FVec Ideal ⟨2, ![R, K]⟩ .f32) (W1 : FVec Ideal ⟨2, ![K, L]⟩ .f32) (b1 : FVec Ideal ⟨2, ![1, L]⟩ .f32)
    (W2 : FVec Ideal ⟨2, ![L, C]⟩ .f32) (b2 : FVec Ideal ⟨2, ![1, C]⟩ .f32) (p : Fin R) (q : Fin C) :
    mlp X W1 b1 W2 b2 (ix2 p q) = rowMLP (fun k => X (ix2 p k)) (fun k l => W1 (ix2 k l)) (fun l => b1 (ix2 (0 : Fin 1) l))
      (fun l q => W2 (ix2 l q)) (fun q => b2 (ix2 (0 : Fin 1) q)) q := rfl

/-- One entry of the normalisation's affine map. -/
def normAt (h mean inv g b : EReal) : EReal := (g * (h - mean)) * inv + b

/-- The normalisation's affine map, the column statistics as rows. -/
def norm (h : FVec Ideal ⟨2, ![R, C]⟩ .f32) (mean inv g b : FVec Ideal ⟨2, ![1, C]⟩ .f32) : FVec Ideal ⟨2, ![R, C]⟩ .f32 :=
  fun i => normAt (h i) (mean (ix2 (0 : Fin 1) (i 1))) (inv (ix2 (0 : Fin 1) (i 1))) (g (ix2 (0 : Fin 1) (i 1))) (b (ix2 (0 : Fin 1) (i 1)))

/-- The same followed by the rectifier. -/
def normRelu (h : FVec Ideal ⟨2, ![R, C]⟩ .f32) (mean inv g b : FVec Ideal ⟨2, ![1, C]⟩ .f32) : FVec Ideal ⟨2, ![R, C]⟩ .f32 :=
  fun i => max (norm h mean inv g b i) 0

theorem norm_apply (h : FVec Ideal ⟨2, ![R, C]⟩ .f32) (mean inv g b : FVec Ideal ⟨2, ![1, C]⟩ .f32) (p : Fin R) (q : Fin C) :
    norm h mean inv g b (ix2 p q) = normAt (h (ix2 p q)) (mean (ix2 (0 : Fin 1) q)) (inv (ix2 (0 : Fin 1) q)) (g (ix2 (0 : Fin 1) q)) (b (ix2 (0 : Fin 1) q)) := rfl

theorem normRelu_apply (h : FVec Ideal ⟨2, ![R, C]⟩ .f32) (mean inv g b : FVec Ideal ⟨2, ![1, C]⟩ .f32) (p : Fin R) (q : Fin C) :
    normRelu h mean inv g b (ix2 p q) = max (normAt (h (ix2 p q)) (mean (ix2 (0 : Fin 1) q)) (inv (ix2 (0 : Fin 1) q)) (g (ix2 (0 : Fin 1) q)) (b (ix2 (0 : Fin 1) q))) 0 := rfl

/-- The dot product of row `p` of `a` and of `b`, as a column. -/
def rowDot (a b : FVec Ideal ⟨2, ![R, C]⟩ .f32) : FVec Ideal ⟨2, ![R, 1]⟩ .f32 :=
  fun i => ∑ k : Fin C, a (ix2 (i 0) k) * b (ix2 (i 0) k)

/-- The same as a vector. -/
def dotRows (a b : FVec Ideal ⟨2, ![R, C]⟩ .f32) : FVec Ideal ⟨1, ![R]⟩ .f32 :=
  fun i => ∑ k : Fin C, a (ix2 (i 0) k) * b (ix2 (i 0) k)

theorem rowDot_apply (a b : FVec Ideal ⟨2, ![R, C]⟩ .f32) (p : Fin R) (u : Fin 1) :
    rowDot a b (ix2 p u) = ∑ k : Fin C, a (ix2 p k) * b (ix2 p k) := rfl

theorem dotRows_apply (a b : FVec Ideal ⟨2, ![R, C]⟩ .f32) (p : Fin R) :
    dotRows a b (ix1 p) = ∑ k : Fin C, a (ix2 p k) * b (ix2 p k) := rfl

end Cert.GinSpec

end
-- ==== Proof.Shared.lean ====
/-
  The graph network as ONE function of the fifteen argument arrays.

  Both programs compute, for a graph on 100000 nodes with 600000 edges and 200000 candidate edges:

  * an aggregation `aggIdx src dst h`: row `n` of the result is row `n` of `h` plus the sum of the rows `h[src e]`
    over the edges `e` with `dst e = n` (a row gather at the wrapped source indices scattered by addition at the
    destination indices into zeros, plus `h`);
  * a two-layer perceptron over the rows (`GinSpec.mlp`);
  * a batch normalisation: the column means `mean h`, the reciprocal standard deviations `invStd h`
    (`rsqrt (mean of the squared deviations + eps)`), and the affine map `GinSpec.norm`, after the first layer followed
    by a rectifier;
  * the same once more; and
  * for every candidate edge the dot product of the two endpoint rows of the final embedding (`GinSpec.dotRows` of two
    row gathers).

  The aggregation, the statistics and the endpoint gathers are the same host operations in both programs: they are
  named here once and never opened.  `net` is the composition.
-/
import proofs.«108490_j24395414241389_1_alg».proof.KernelIdeal
import proofs.«108490_j24395414241389_1_alg».proof.Proof.Gen.KernelIdeal
import proofs.«108490_j24395414241389_1_alg».proof.Proof.Spec

noncomputable section

namespace Cert.Net

open Cert.KernelIdeal Cert.KernelIdeal.Facts₀ Cert.KernelIdeal.Facts Idealize.ShloMosaic

/-! ## The edge tables -/

/-- The edges' source nodes: row 0 of the edge table. -/
def srcOf (ei : IVec S2x600000 32) : IVec S600000 32 :=
  shapeCast _ (extractStridedSlice S1x600000 ![0, 0] ei slices_S2x600000_S1x600000_0_0) shapeCasts_S1x600000_S600000

/-- The edges' destination nodes: row 1 of the edge table. -/
def dstOf (ei : IVec S2x600000 32) : IVec S600000 32 :=
  shapeCast _ (extractStridedSlice S1x600000 ![1, 0] ei slices_S2x600000_S1x600000_1_0) shapeCasts_S1x600000_S600000

/-- A negative node index counts from the end. -/
def wrapE (s : IVec S600000 32) : IVec S600000 32 :=
  select (cmpi .slt s (broadcastInDim S600000 ![] bcast_S_S600000 (constantI S_ 32 0#32)))
    (addi s (broadcastInDim S600000 ![] bcast_S_S600000 (constantI S_ 32 100000#32))) s

/-- The aggregation: the rows gathered at the sources, added up at the destinations, plus the node's own row. -/
def aggIdx (src dst : IVec S600000 32) (h : FVec Ideal S100000x128 .f32) : FVec Ideal S100000x128 .f32 :=
  addf (F := Ideal) (Host.scatterAdd (F := Ideal) scatter_S100000x128_S600000x1_S600000x128_1_0_0_1
      (broadcastInDim S100000x128 ![] bcast_S_S100000x128 (constant (F := Ideal) S_ .f32 0x00000000#32))
      (broadcastInDim S600000x1 ![0] bcast_S600000_S600000x1_0 dst)
      (Host.gather gather_S100000x128_S600000x1_S600000x128_1_0_n_n_0_1_1128 h
        (broadcastInDim S600000x1 ![0] bcast_S600000_S600000x1_0 (wrapE src)))) h

/-! ## The column statistics -/

/-- The column means. -/
def mean (h : FVec Ideal S100000x128 .f32) : FVec Ideal S128 .f32 :=
  Host.divf (F := Ideal) (Host.reduceAdd (F := Ideal) h (constant (F := Ideal) S_ .f32 0x00000000#32) reducesTo_S100000x128_S128_d0 h_S_)
    (broadcastInDim S128 ![] bcast_S_S128 (constant (F := Ideal) S_ .f32 0x47C35000#32))

/-- The deviations from the column means. -/
def centred (h : FVec Ideal S100000x128 .f32) : FVec Ideal S100000x128 .f32 :=
  subf (F := Ideal) h (broadcastInDim S100000x128 ![0, 1] bcast_S1x128_S100000x128_0_1 (broadcastInDim S1x128 ![1] bcast_S128_S1x128_1 (mean h)))

/-- The reciprocal standard deviations of the columns. -/
def invStd (h : FVec Ideal S100000x128 .f32) : FVec Ideal S128 .f32 :=
  Host.rsqrt (F := Ideal) (addf (F := Ideal) (Host.divf (F := Ideal)
      (Host.reduceAdd (F := Ideal) (mulf (F := Ideal) (centred h) (centred h)) (constant (F := Ideal) S_ .f32 0x00000000#32) reducesTo_S100000x128_S128_d0 h_S_)
      (broadcastInDim S128 ![] bcast_S_S128 (constant (F := Ideal) S_ .f32 0x47C35000#32)))
    (broadcastInDim S128 ![] bcast_S_S128 (constant (F := Ideal) S_ .f32 0x3727C5AC#32)))

/-- A vector of length 128 as a row. -/
def row128 (x : FVec Ideal S128 .f32) : FVec Ideal S1x128 .f32 := shapeCast _ x shapeCasts_S128_S1x128

/-- A vector of length 256 as a row. -/
def row256 (x : FVec Ideal S256 .f32) : FVec Ideal S1x256 .f32 := shapeCast _ x shapeCasts_S256_S1x256

/-! ## The candidate edges -/

/-- Row `0` of the candidate table. -/
def endRow0 (el : IVec S2x200000 32) : IVec S200000 32 :=
  shapeCast _ (extractStridedSlice S1x200000 ![0, 0] el slices_S2x200000_S1x200000_0_0) shapeCasts_S1x200000_S200000

/-- Row `1` of the candidate table. -/
def endRow1 (el : IVec S2x200000 32) : IVec S200000 32 :=
  shapeCast _ (extractStridedSlice S1x200000 ![1, 0] el slices_S2x200000_S1x200000_1_0) shapeCasts_S1x200000_S200000

/-- A negative node index counts from the end. -/
def wrapL (s : IVec S200000 32) : IVec S200000 32 :=
  select (cmpi .slt s (broadcastInDim S200000 ![] bcast_S_S200000 (constantI S_ 32 0#32)))
    (addi s (broadcastInDim S200000 ![] bcast_S_S200000 (constantI S_ 32 100000#32))) s

/-- The embedding's rows at one endpoint of every candidate edge. -/
def endpoint (z : FVec Ideal S100000x128 .f32) (s : IVec S200000 32) : FVec Ideal S200000x128 .f32 :=
  Host.gather gather_S100000x128_S200000x1_S200000x128_1_0_n_n_0_1_1128 z
    (broadcastInDim S200000x1 ![0] bcast_S200000_S200000x1_0 (wrapL s))

/-! ## The layers composed -/

/-- The first layer's perceptron output. -/
def hid0 (a0 : FVec Ideal S100000x128 .f32) (a1 : IVec S2x600000 32) (a3 : FVec Ideal S128x256 .f32) (a4 : FVec Ideal S256 .f32) (a5 : FVec Ideal S256x128 .f32)
    (a6 : FVec Ideal S128 .f32) : FVec Ideal S100000x128 .f32 :=
  GinSpec.mlp (R := 100000) (K := 128) (L := 256) (C := 128) (aggIdx (srcOf a1) (dstOf a1) a0) a3 (row256 a4) a5 (row128 a6)

/-- A normalised and rectified layer output. -/
def bnRelu (h : FVec Ideal S100000x128 .f32) (g b : FVec Ideal S128 .f32) : FVec Ideal S100000x128 .f32 :=
  GinSpec.normRelu (R := 100000) (C := 128) h (row128 (mean h)) (row128 (invStd h)) (row128 g) (row128 b)

/-- A normalised layer output. -/
def bn (h : FVec Ideal S100000x128 .f32) (g b : FVec Ideal S128 .f32) : FVec Ideal S100000x128 .f32 :=
  GinSpec.norm (R := 100000) (C := 128) h (row128 (mean h)) (row128 (invStd h)) (row128 g) (row128 b)

/-- The second layer's perceptron output, from the first layer's activations `x`. -/
def hid1 (x : FVec Ideal S100000x128 .f32) (a1 : IVec S2x600000 32) (a7 : FVec Ideal S128x256 .f32) (a8 : FVec Ideal S256 .f32) (a9 : FVec Ideal S256x128 .f32)
    (a10 : FVec Ideal S128 .f32) : FVec Ideal S100000x128 .f32 :=
  GinSpec.mlp (R := 100000) (K := 128) (L := 256) (C := 128) (aggIdx (srcOf a1) (dstOf a1) x) a7 (row256 a8) a9 (row128 a10)

/-- The candidate edges' scores from the embedding `z`. -/
def score (z : FVec Ideal S100000x128 .f32) (a2 : IVec S2x200000 32) : FVec Ideal S200000 .f32 :=
  GinSpec.dotRows (R := 200000) (C := 128) (endpoint z (endRow0 a2)) (endpoint z (endRow1 a2))

/-- THE NETWORK: the candidate edges' scores as a function of the fifteen arguments. -/
def net (a0 : FVec Ideal S100000x128 .f32) (a1 : IVec S2x600000 32) (a2 : IVec S2x200000 32) (a3 : FVec Ideal S128x256 .f32) (a4 : FVec Ideal S256 .f32)
    (a5 : FVec Ideal S256x128 .f32) (a6 : FVec Ideal S128 .f32) (a7 : FVec Ideal S128x256 .f32) (a8 : FVec Ideal S256 .f32) (a9 : FVec Ideal S256x128 .f32)
    (a10 a11 a12 a13 a14 : FVec Ideal S128 .f32) : FVec Ideal S200000 .f32 :=
  score (bn (hid1 (bnRelu (hid0 a0 a1 a3 a4 a5 a6) a11 a12) a1 a7 a8 a9 a10) a13 a14) a2

end Cert.Net

end
-- ==== Proof.KHost0.lean ====
/-
  The host operations between the kernel launches, read one stretch at a time: the stretch before the first launch.

  Each statement is about the fold of one stretch's operations over ANY buffer contents `W`: a buffer the stretch
  computes holds the named function of the contents it reads (the aggregation, the column statistics, the row forms of
  vectors, the endpoint gathers — the definitions shared with the reference), and a buffer the stretch does not write
  holds what it held.
-/
import proofs.«108490_j24395414241389_1_alg».proof.Proof.Gen.KernelIdeal.Launch
import proofs.«108490_j24395414241389_1_alg».proof.Proof.Shared
import Idealize.ShloMosaic.Lib.StableHlo.Run

noncomputable section

namespace Cert.KernelIdeal.Stretch

open Cert.KernelIdeal Cert.KernelIdeal.Gen Cert.KernelIdeal.Facts₀ Cert.KernelIdeal.Facts
open Idealize.ShloMosaic Idealize.ShloMosaic.TcCoe Idealize.SL.Sem Idealize.ShloMosaic.StableHlo Cert.Net

/-! ## The first stretch: the edge tables, the first aggregation, the first perceptron's bias rows -/

theorem s0_v14 (W : Valuation τ sig (Elt Ideal)) :
    StableHlo.after (hostOps0 (F := Ideal)) W (Proc.devRef .tc main_v14) = aggIdx (srcOf (W (Proc.devRef .tc main_arg1))) (dstOf (W (Proc.devRef .tc main_arg1))) (W (Proc.devRef .tc main_arg0)) := by
  dsimp only [hostOps0]
  after_results_simp <;> rfl

theorem s0_v15 (W : Valuation τ sig (Elt Ideal)) :
    StableHlo.after (hostOps0 (F := Ideal)) W (Proc.devRef .tc main_v15) = row256 (W (Proc.devRef .tc main_arg4)) := by
  dsimp only [hostOps0]
  after_results_simp <;> rfl

theorem s0_v16 (W : Valuation τ sig (Elt Ideal)) :
    StableHlo.after (hostOps0 (F := Ideal)) W (Proc.devRef .tc main_v16) = row128 (W (Proc.devRef .tc main_arg6)) := by
  dsimp only [hostOps0]
  after_results_simp <;> rfl

theorem s0_v1 (W : Valuation τ sig (Elt Ideal)) :
    StableHlo.after (hostOps0 (F := Ideal)) W (Proc.devRef .tc main_v1) = srcOf (W (Proc.devRef .tc main_arg1)) := by
  dsimp only [hostOps0]
  after_results_simp <;> rfl

theorem s0_v3 (W : Valuation τ sig (Elt Ideal)) :
    StableHlo.after (hostOps0 (F := Ideal)) W (Proc.devRef .tc main_v3) = dstOf (W (Proc.devRef .tc main_arg1)) := by
  dsimp only [hostOps0]
  after_results_simp <;> rfl

theorem s0_arg2 (W : Valuation τ sig (Elt Ideal)) :
    StableHlo.after (hostOps0 (F := Ideal)) W (Proc.devRef .tc main_arg2) = (W (Proc.devRef .tc main_arg2)) := by
  dsimp only [hostOps0]
  after_results_simp <;> rfl

theorem s0_arg3 (W : Valuation τ sig (Elt Ideal)) :
    StableHlo.after (hostOps0 (F := Ideal)) W (Proc.devRef .tc main_arg3) = (W (Proc.devRef .tc main_arg3)) := by
  dsimp only [hostOps0]
  after_results_simp <;> rfl

theorem s0_arg5 (W : Valuation τ sig (Elt Ideal)) :
    StableHlo.after (hostOps0 (F := Ideal)) W (Proc.devRef .tc main_arg5) = (W (Proc.devRef .tc main_arg5)) := by
  dsimp only [hostOps0]
  after_results_simp <;> rfl

theorem s0_arg7 (W : Valuation τ sig (Elt Ideal)) :
    StableHlo.after (hostOps0 (F := Ideal)) W (Proc.devRef .tc main_arg7) = (W (Proc.devRef .tc main_arg7)) := by
  dsimp only [hostOps0]
  after_results_simp <;> rfl

theorem s0_arg8 (W : Valuation τ sig (Elt Ideal)) :
    StableHlo.after (hostOps0 (F := Ideal)) W (Proc.devRef .tc main_arg8) = (W (Proc.devRef .tc main_arg8)) := by
  dsimp only [hostOps0]
  after_results_simp <;> rfl

theorem s0_arg9 (W : Valuation τ sig (Elt Ideal)) :
    StableHlo.after (hostOps0 (F := Ideal)) W (Proc.devRef .tc main_arg9) = (W (Proc.devRef .tc main_arg9)) := by
  dsimp only [hostOps0]
  after_results_simp <;> rfl

theorem s0_arg10 (W : Valuation τ sig (Elt Ideal)) :
    StableHlo.after (hostOps0 (F := Ideal)) W (Proc.devRef .tc main_arg10) = (W (Proc.devRef .tc main_arg10)) := by
  dsimp only [hostOps0]
  after_results_simp <;> rfl

theorem s0_arg11 (W : Valuation τ sig (Elt Ideal)) :
    StableHlo.after (hostOps0 (F := Ideal)) W (Proc.devRef .tc main_arg11) = (W (Proc.devRef .tc main_arg11)) := by
  dsimp only [hostOps0]
  after_results_simp <;> rfl

theorem s0_arg12 (W : Valuation τ sig (Elt Ideal)) :
    StableHlo.after (hostOps0 (F := Ideal)) W (Proc.devRef .tc main_arg12) = (W (Proc.devRef .tc main_arg12)) := by
  dsimp only [hostOps0]
  after_results_simp <;> rfl

theorem s0_arg13 (W : Valuation τ sig (Elt Ideal)) :
    StableHlo.after (hostOps0 (F := Ideal)) W (Proc.devRef .tc main_arg13) = (W (Proc.devRef .tc main_arg13)) := by
  dsimp only [hostOps0]
  after_results_simp <;> rfl

theorem s0_arg14 (W : Valuation τ sig (Elt Ideal)) :
    StableHlo.after (hostOps0 (F := Ideal)) W (Proc.devRef .tc main_arg14) = (W (Proc.devRef .tc main_arg14)) := by
  dsimp only [hostOps0]
  after_results_simp <;> rfl

end Cert.KernelIdeal.Stretch

end
-- ==== Proof.KHost1.lean ====
/-
  The host operations between the kernel launches, read one stretch at a time: the stretch between the first and the second launch.

  Each statement is about the fold of one stretch's operations over ANY buffer contents `W`: a buffer the stretch
  computes holds the named function of the contents it reads (the aggregation, the column statistics, the row forms of
  vectors, the endpoint gathers — the definitions shared with the reference), and a buffer the stretch does not write
  holds what it held.
-/
import proofs.«108490_j24395414241389_1_alg».proof.Proof.Gen.KernelIdeal.Launch
import proofs.«108490_j24395414241389_1_alg».proof.Proof.Shared
import Idealize.ShloMosaic.Lib.StableHlo.Run

noncomputable section

namespace Cert.KernelIdeal.Stretch

open Cert.KernelIdeal Cert.KernelIdeal.Gen Cert.KernelIdeal.Facts₀ Cert.KernelIdeal.Facts
open Idealize.ShloMosaic Idealize.ShloMosaic.TcCoe Idealize.SL.Sem Idealize.ShloMosaic.StableHlo Cert.Net

/-! ## The second stretch: the first layer's column statistics as rows, the first normalisation's scale and shift rows -/

theorem s1_v31 (W : Valuation τ sig (Elt Ideal)) :
    StableHlo.after (hostOps1 (F := Ideal)) W (Proc.devRef .tc main_v31) = row128 (mean (W (Proc.devRef .tc main_v17))) := by
  dsimp only [hostOps1]
  after_results_simp <;> rfl

theorem s1_v32 (W : Valuation τ sig (Elt Ideal)) :
    StableHlo.after (hostOps1 (F := Ideal)) W (Proc.devRef .tc main_v32) = row128 (invStd (W (Proc.devRef .tc main_v17))) := by
  dsimp only [hostOps1]
  after_results_simp <;> rfl

theorem s1_v33 (W : Valuation τ sig (Elt Ideal)) :
    StableHlo.after (hostOps1 (F := Ideal)) W (Proc.devRef .tc main_v33) = row128 (W (Proc.devRef .tc main_arg11)) := by
  dsimp only [hostOps1]
  after_results_simp <;> rfl

theorem s1_v34 (W : Valuation τ sig (Elt Ideal)) :
    StableHlo.after (hostOps1 (F := Ideal)) W (Proc.devRef .tc main_v34) = row128 (W (Proc.devRef .tc main_arg12)) := by
  dsimp only [hostOps1]
  after_results_simp <;> rfl

theorem s1_v17 (W : Valuation τ sig (Elt Ideal)) :
    StableHlo.after (hostOps1 (F := Ideal)) W (Proc.devRef .tc main_v17) = (W (Proc.devRef .tc main_v17)) := by
  dsimp only [hostOps1]
  after_results_simp <;> rfl

theorem s1_v1 (W : Valuation τ sig (Elt Ideal)) :
    StableHlo.after (hostOps1 (F := Ideal)) W (Proc.devRef .tc main_v1) = (W (Proc.devRef .tc main_v1)) := by
  dsimp only [hostOps1]
  after_results_simp <;> rfl

theorem s1_v3 (W : Valuation τ sig (Elt Ideal)) :
    StableHlo.after (hostOps1 (F := Ideal)) W (Proc.devRef .tc main_v3) = (W (Proc.devRef .tc main_v3)) := by
  dsimp only [hostOps1]
  after_results_simp <;> rfl

theorem s1_arg2 (W : Valuation τ sig (Elt Ideal)) :
    StableHlo.after (hostOps1 (F := Ideal)) W (Proc.devRef .tc main_arg2) = (W (Proc.devRef .tc main_arg2)) := by
  dsimp only [hostOps1]
  after_results_simp <;> rfl

theorem s1_arg7 (W : Valuation τ sig (Elt Ideal)) :
    StableHlo.after (hostOps1 (F := Ideal)) W (Proc.devRef .tc main_arg7) = (W (Proc.devRef .tc main_arg7)) := by
  dsimp only [hostOps1]
  after_results_simp <;> rfl

theorem s1_arg8 (W : Valuation τ sig (Elt Ideal)) :
    StableHlo.after (hostOps1 (F := Ideal)) W (Proc.devRef .tc main_arg8) = (W (Proc.devRef .tc main_arg8)) := by
  dsimp only [hostOps1]
  after_results_simp <;> rfl

theorem s1_arg9 (W : Valuation τ sig (Elt Ideal)) :
    StableHlo.after (hostOps1 (F := Ideal)) W (Proc.devRef .tc main_arg9) = (W (Proc.devRef .tc main_arg9)) := by
  dsimp only [hostOps1]
  after_results_simp <;> rfl

theorem s1_arg10 (W : Valuation τ sig (Elt Ideal)) :
    StableHlo.after (hostOps1 (F := Ideal)) W (Proc.devRef .tc main_arg10) = (W (Proc.devRef .tc main_arg10)) := by
  dsimp only [hostOps1]
  after_results_simp <;> rfl

theorem s1_arg13 (W : Valuation τ sig (Elt Ideal)) :
    StableHlo.after (hostOps1 (F := Ideal)) W (Proc.devRef .tc main_arg13) = (W (Proc.devRef .tc main_arg13)) := by
  dsimp only [hostOps1]
  after_results_simp <;> rfl

theorem s1_arg14 (W : Valuation τ sig (Elt Ideal)) :
    StableHlo.after (hostOps1 (F := Ideal)) W (Proc.devRef .tc main_arg14) = (W (Proc.devRef .tc main_arg14)) := by
  dsimp only [hostOps1]
  after_results_simp <;> rfl

end Cert.KernelIdeal.Stretch

end
-- ==== Proof.KHost2.lean ====
/-
  The host operations between the kernel launches, read one stretch at a time: the stretches between the second and the fourth launch.

  Each statement is about the fold of one stretch's operations over ANY buffer contents `W`: a buffer the stretch
  computes holds the named function of the contents it reads (the aggregation, the column statistics, the row forms of
  vectors, the endpoint gathers — the definitions shared with the reference), and a buffer the stretch does not write
  holds what it held.
-/
import proofs.«108490_j24395414241389_1_alg».proof.Proof.Gen.KernelIdeal.Launch
import proofs.«108490_j24395414241389_1_alg».proof.Proof.Shared
import Idealize.ShloMosaic.Lib.StableHlo.Run

noncomputable section

namespace Cert.KernelIdeal.Stretch

open Cert.KernelIdeal Cert.KernelIdeal.Gen Cert.KernelIdeal.Facts₀ Cert.KernelIdeal.Facts
open Idealize.ShloMosaic Idealize.ShloMosaic.TcCoe Idealize.SL.Sem Idealize.ShloMosaic.StableHlo Cert.Net

/-! ## The third stretch: the second aggregation, the second perceptron's bias rows -/

theorem s2_v46 (W : Valuation τ sig (Elt Ideal)) :
    StableHlo.after (hostOps2 (F := Ideal)) W (Proc.devRef .tc main_v46) = aggIdx (W (Proc.devRef .tc main_v1)) (W (Proc.devRef .tc main_v3)) (W (Proc.devRef .tc main_v35)) := by
  dsimp only [hostOps2]
  after_results_simp <;> rfl

theorem s2_v47 (W : Valuation τ sig (Elt Ideal)) :
    StableHlo.after (hostOps2 (F := Ideal)) W (Proc.devRef .tc main_v47) = row256 (W (Proc.devRef .tc main_arg8)) := by
  dsimp only [hostOps2]
  after_results_simp <;> rfl

theorem s2_v48 (W : Valuation τ sig (Elt Ideal)) :
    StableHlo.after (hostOps2 (F := Ideal)) W (Proc.devRef .tc main_v48) = row128 (W (Proc.devRef .tc main_arg10)) := by
  dsimp only [hostOps2]
  after_results_simp <;> rfl

theorem s2_arg7 (W : Valuation τ sig (Elt Ideal)) :
    StableHlo.after (hostOps2 (F := Ideal)) W (Proc.devRef .tc main_arg7) = (W (Proc.devRef .tc main_arg7)) := by
  dsimp only [hostOps2]
  after_results_simp <;> rfl

theorem s2_arg9 (W : Valuation τ sig (Elt Ideal)) :
    StableHlo.after (hostOps2 (F := Ideal)) W (Proc.devRef .tc main_arg9) = (W (Proc.devRef .tc main_arg9)) := by
  dsimp only [hostOps2]
  after_results_simp <;> rfl

theorem s2_arg2 (W : Valuation τ sig (Elt Ideal)) :
    StableHlo.after (hostOps2 (F := Ideal)) W (Proc.devRef .tc main_arg2) = (W (Proc.devRef .tc main_arg2)) := by
  dsimp only [hostOps2]
  after_results_simp <;> rfl

theorem s2_arg13 (W : Valuation τ sig (Elt Ideal)) :
    StableHlo.after (hostOps2 (F := Ideal)) W (Proc.devRef .tc main_arg13) = (W (Proc.devRef .tc main_arg13)) := by
  dsimp only [hostOps2]
  after_results_simp <;> rfl

theorem s2_arg14 (W : Valuation τ sig (Elt Ideal)) :
    StableHlo.after (hostOps2 (F := Ideal)) W (Proc.devRef .tc main_arg14) = (W (Proc.devRef .tc main_arg14)) := by
  dsimp only [hostOps2]
  after_results_simp <;> rfl

/-! ## The fourth stretch: the second layer's column statistics as rows, the second normalisation's scale and shift rows -/

theorem s3_v63 (W : Valuation τ sig (Elt Ideal)) :
    StableHlo.after (hostOps3 (F := Ideal)) W (Proc.devRef .tc main_v63) = row128 (mean (W (Proc.devRef .tc main_v49))) := by
  dsimp only [hostOps3]
  after_results_simp <;> rfl

theorem s3_v64 (W : Valuation τ sig (Elt Ideal)) :
    StableHlo.after (hostOps3 (F := Ideal)) W (Proc.devRef .tc main_v64) = row128 (invStd (W (Proc.devRef .tc main_v49))) := by
  dsimp only [hostOps3]
  after_results_simp <;> rfl

theorem s3_v65 (W : Valuation τ sig (Elt Ideal)) :
    StableHlo.after (hostOps3 (F := Ideal)) W (Proc.devRef .tc main_v65) = row128 (W (Proc.devRef .tc main_arg13)) := by
  dsimp only [hostOps3]
  after_results_simp <;> rfl

theorem s3_v66 (W : Valuation τ sig (Elt Ideal)) :
    StableHlo.after (hostOps3 (F := Ideal)) W (Proc.devRef .tc main_v66) = row128 (W (Proc.devRef .tc main_arg14)) := by
  dsimp only [hostOps3]
  after_results_simp <;> rfl

theorem s3_v49 (W : Valuation τ sig (Elt Ideal)) :
    StableHlo.after (hostOps3 (F := Ideal)) W (Proc.devRef .tc main_v49) = (W (Proc.devRef .tc main_v49)) := by
  dsimp only [hostOps3]
  after_results_simp <;> rfl

theorem s3_arg2 (W : Valuation τ sig (Elt Ideal)) :
    StableHlo.after (hostOps3 (F := Ideal)) W (Proc.devRef .tc main_arg2) = (W (Proc.devRef .tc main_arg2)) := by
  dsimp only [hostOps3]
  after_results_simp <;> rfl

end Cert.KernelIdeal.Stretch

end
-- ==== Proof.KHost3.lean ====
/-
  The host operations between the kernel launches, read one stretch at a time: the stretches around the last launch.

  Each statement is about the fold of one stretch's operations over ANY buffer contents `W`: a buffer the stretch
  computes holds the named function of the contents it reads (the aggregation, the column statistics, the row forms of
  vectors, the endpoint gathers — the definitions shared with the reference), and a buffer the stretch does not write
  holds what it held.
-/
import proofs.«108490_j24395414241389_1_alg».proof.Proof.Gen.KernelIdeal.Launch
import proofs.«108490_j24395414241389_1_alg».proof.Proof.Shared
import Idealize.ShloMosaic.Lib.StableHlo.Run

noncomputable section

namespace Cert.KernelIdeal.Stretch

open Cert.KernelIdeal Cert.KernelIdeal.Gen Cert.KernelIdeal.Facts₀ Cert.KernelIdeal.Facts
open Idealize.ShloMosaic Idealize.ShloMosaic.TcCoe Idealize.SL.Sem Idealize.ShloMosaic.StableHlo Cert.Net

/-! ## The fifth stretch: the embedding's rows at the two endpoints of every candidate edge; the last: the scores as a vector -/

theorem s4_v76 (W : Valuation τ sig (Elt Ideal)) :
    StableHlo.after (hostOps4 (F := Ideal)) W (Proc.devRef .tc main_v76) = endpoint (W (Proc.devRef .tc main_v67)) (endRow0 (W (Proc.devRef .tc main_arg2))) := by
  dsimp only [hostOps4]
  after_results_simp <;> rfl

theorem s4_v85 (W : Valuation τ sig (Elt Ideal)) :
    StableHlo.after (hostOps4 (F := Ideal)) W (Proc.devRef .tc main_v85) = endpoint (W (Proc.devRef .tc main_v67)) (endRow1 (W (Proc.devRef .tc main_arg2))) := by
  dsimp only [hostOps4]
  after_results_simp <;> rfl

theorem s5_v87 (W : Valuation τ sig (Elt Ideal)) :
    StableHlo.after (hostOps5 (F := Ideal)) W (Proc.devRef .tc main_v87) = shapeCast S200000 (W (Proc.devRef .tc main_v86)) Facts₀.shapeCasts_S200000x1_S200000 := by
  dsimp only [hostOps5]
  after_results_simp <;> rfl

end Cert.KernelIdeal.Stretch

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«108490_j24395414241389_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowMLP.lean ====
/-
  A two-layer perceptron stage over the rows of an array, read at an entry.

  The stage takes an `[R, K]` array `X`, multiplies by a `[K, L]` matrix, adds a bias row, rectifies, multiplies by
  an `[L, C]` matrix and adds a second bias row.  Every row is treated alike and on its own, so entry `(p, q)` of the
  result is output `q` of the perceptron row (`rowMLP`) run on row `p` of `X`.  Two spellings of the stage are read
  here: the vector unit's (matrix products into a zero accumulator, the operands narrowed in format on the way in,
  a bias row broadcast over the rows, a maximum with a splat zero) and the host's (`dot_general`, a bias vector set up
  as a row and broadcast, a maximum with a broadcast scalar zero).  On the extended reals a change of format is the
  identity and both products are the plain sum over the contracted index.

  Also: arrays of one shape `[R, K]` laid side by side along the columns, read at `(p, c)`: piece `c / K` at
  `(p, c % K)`.
-/
import proofs.«108490_j24395414241389_1_alg».proof.Proof.LibFoldBias
import proofs.«108490_j24395414241389_1_alg».proof.Proof.LibHostDot
import proofs.«108490_j24395414241389_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRowMLP

open Idealize.ShloMosaic Idealize.ShloMosaic.ValueIdx Cert.LibPlainDot Cert.LibHostDot Cert.LibColumn Cert.LibFoldBias

/-! ## Pieces side by side -/

section Cols
variable {α : Type}

/-- `n` arrays `[R, K]` joined along the columns into `[R, T]`, read at `(p, c)`: piece `g = c / K` at `(p, c % K)`. -/
theorem cols_apply {n R K T : Nat} (f : Fin n → ((⟨2, ![R, K]⟩ : Shape).Idx → α))
    (h : Shape.Concatenates ((List.ofFn fun g : Fin n => (⟨⟨2, ![R, K]⟩, f g⟩ : (s : Shape) × (s.Idx → α))).map (·.1))
      ⟨2, ![R, T]⟩ 1)
    (p : Fin R) (c : Fin T) (g : Fin n) (k : Fin K) (hg : c.val / K = g.val) (hk : k.val = c.val % K) :
    concatenate ⟨2, ![R, T]⟩ 1 (List.ofFn fun g : Fin n => (⟨⟨2, ![R, K]⟩, f g⟩ : (s : Shape) × (s.Idx → α))) h (ix2 p c)
      = f g (ix2 p k) :=
  concatenate_ofFn_apply (t := ⟨2, ![R, T]⟩) (s₁ := ⟨2, ![R, K]⟩) (1 : Fin 2) f h rfl K rfl (ix2 p c) g hg (ix2 p k) hk (fun b hb => by
    match b with
    | ⟨0, _⟩ => rfl
    | ⟨1, _⟩ => exact absurd rfl hb)

end Cols

/-! ## The stage on the vector unit -/

section Vec
variable {R K L C : Nat} {ψ φ₁ φ₂ φ₃ : FTy}
  (wf1 : DotDims.WF ⟨2, ![R, K]⟩ ⟨2, ![K, L]⟩ ⟨2, ![R, L]⟩ [1] [0] [0] [1] [] [])
  (wf2 : DotDims.WF ⟨2, ![R, L]⟩ ⟨2, ![L, C]⟩ ⟨2, ![R, C]⟩ [1] [0] [0] [1] [] [])
  (hb1 : (⟨2, ![1, L]⟩ : Shape).Broadcasts ⟨2, ![R, L]⟩) (hb2 : (⟨2, ![1, C]⟩ : Shape).Broadcasts ⟨2, ![R, C]⟩)

/-- Entry `(p, q)` of the vector unit's stage is the perceptron row on row `p` of `X`. -/
theorem mlp_vec_apply (X : FVec Ideal ⟨2, ![R, K]⟩ φ₁) (W1 : FVec Ideal ⟨2, ![K, L]⟩ φ₂) (b1 : FVec Ideal ⟨2, ![1, L]⟩ .f32)
    (W2 : FVec Ideal ⟨2, ![L, C]⟩ φ₃) (b2 : FVec Ideal ⟨2, ![1, C]⟩ .f32)
    (h1 : ψ.bits < φ₂.bits) (h2 : ψ.bits < FTy.f32.bits) (h3 : ψ.bits < φ₃.bits) (p : Fin R) (q : Fin C) :
    addf (matmul (plainDot R L C wf2) none
        (truncf ψ (maximumf (addf (matmul (plainDot R K L wf1) none X (truncf ψ W1 h1)
              (constant ⟨2, ![R, L]⟩ .f32 0x00000000#32)) (broadcastTo ⟨2, ![R, L]⟩ b1 hb1))
            (broadcast ⟨2, ![R, L]⟩ (Scalar.ofBits .f32 0x00000000#32))) h2)
        (truncf ψ W2 h3) (constant ⟨2, ![R, C]⟩ .f32 0x00000000#32)) (broadcastTo ⟨2, ![R, C]⟩ b2 hb2) (ix2 p q)
      = rowMLP (fun k => X (ix2 p k)) (fun k l => W1 (ix2 k l)) (fun l => b1 (ix2 (0 : Fin 1) l))
          (fun l q => W2 (ix2 l q)) (fun q => b2 (ix2 (0 : Fin 1) q)) q := by
  unfold rowMLP
  refine (addf_apply _ _ _).trans ?_
  rw [broadcastTo_1b_ab_apply b2 hb2 p q]
  refine congrArg (· + b2 (ix2 (0 : Fin 1) q)) ?_
  refine (matmul_zero_apply wf2 none _ _ p q).trans (Finset.sum_congr rfl fun l _ => ?_)
  refine congrArg (· * W2 (ix2 l q)) ?_
  show max ((FloatOps.matmul (plainDot R K L wf1) none X (truncf ψ W1 h1) (constant ⟨2, ![R, L]⟩ .f32 0x00000000#32) (ix2 p l))
      + broadcastTo ⟨2, ![R, L]⟩ b1 hb1 (ix2 p l)) (Ideal.ofBits .f32 0x00000000#32) = _
  rw [matmul_zero_apply wf1, broadcastTo_1b_ab_apply b1 hb1 p l, Ideal.ofBits_zero_f32]
  rfl

end Vec

/-! ## The stage on the host -/

section Host
variable {R K L C : Nat} {φ₁ φ₂ φ₃ : FTy}
  (wf1 : DotDims.WF ⟨2, ![R, K]⟩ ⟨2, ![K, L]⟩ ⟨2, ![R, L]⟩ [1] [0] [0] [1] [] [])
  (wf2 : DotDims.WF ⟨2, ![R, L]⟩ ⟨2, ![L, C]⟩ ⟨2, ![R, C]⟩ [1] [0] [0] [1] [] [])
  (hr1 : (⟨1, ![L]⟩ : Shape).BroadcastsInDim ⟨2, ![1, L]⟩ ![1])
  (hB1 : (⟨2, ![1, L]⟩ : Shape).BroadcastsInDim ⟨2, ![R, L]⟩ ![0, 1])
  (hz : (⟨0, ![]⟩ : Shape).BroadcastsInDim ⟨2, ![R, L]⟩ (![] : Fin 0 → Fin 2))
  (hr2 : (⟨1, ![C]⟩ : Shape).BroadcastsInDim ⟨2, ![1, C]⟩ ![1])
  (hB2 : (⟨2, ![1, C]⟩ : Shape).BroadcastsInDim ⟨2, ![R, C]⟩ ![0, 1])

/-- Entry `(p, q)` of the host's stage is the perceptron row on row `p` of `X`. -/
theorem mlp_host_apply (X : FVec Ideal ⟨2, ![R, K]⟩ φ₁) (W1 : FVec Ideal ⟨2, ![K, L]⟩ φ₂) (b1 : FVec Ideal ⟨1, ![L]⟩ .f32)
    (W2 : FVec Ideal ⟨2, ![L, C]⟩ φ₃) (b2 : FVec Ideal ⟨1, ![C]⟩ .f32) (p : Fin R) (q : Fin C) :
    addf (Host.dotGeneral (F := Ideal) (plainDot R L C wf2) none
        (maximumf (addf (Host.dotGeneral (F := Ideal) (plainDot R K L wf1) none X W1)
            (broadcastInDim ⟨2, ![R, L]⟩ ![0, 1] hB1 (broadcastInDim ⟨2, ![1, L]⟩ ![1] hr1 b1)))
          (broadcastInDim ⟨2, ![R, L]⟩ ![] hz (constant (F := Ideal) ⟨0, ![]⟩ .f32 0x00000000#32))) W2)
        (broadcastInDim ⟨2, ![R, C]⟩ ![0, 1] hB2 (broadcastInDim ⟨2, ![1, C]⟩ ![1] hr2 b2)) (ix2 p q)
      = rowMLP (fun k => X (ix2 p k)) (fun k l => W1 (ix2 k l)) (fun l => b1 (ix1 l))
          (fun l q => W2 (ix2 l q)) (fun q => b2 (ix1 q)) q := by
  unfold rowMLP
  refine (addf_apply _ _ _).trans ?_
  rw [bcastInDim_1b_ab_apply _ hB2 p q, bcastInDim_b_1b_apply b2 hr2 (0 : Fin 1) q]
  refine congrArg (· + b2 (ix1 q)) ?_
  refine (hostDot_apply wf2 none _ _ p q).trans (Finset.sum_congr rfl fun l _ => ?_)
  refine congrArg (· * W2 (ix2 l q)) ?_
  show max ((Host.dotGeneral (F := Ideal) (plainDot R K L wf1) none X W1 (ix2 p l))
      + broadcastInDim ⟨2, ![R, L]⟩ ![0, 1] hB1 (broadcastInDim ⟨2, ![1, L]⟩ ![1] hr1 b1) (ix2 p l))
      (broadcastInDim ⟨2, ![R, L]⟩ ![] hz (constant (F := Ideal) ⟨0, ![]⟩ .f32 0x00000000#32) (ix2 p l)) = _
  rw [hostDot_apply wf1, bcastInDim_1b_ab_apply _ hB1 p l, bcastInDim_b_1b_apply b1 hr1 (0 : Fin 1) l,
    bcastInDim_scalar_apply _ hz (ix2 p l) ix0]
  show max _ (Ideal.ofBits .f32 0x00000000#32) = _
  rw [Ideal.ofBits_zero_f32]

end Host

end Cert.LibRowMLP

end
-- ==== Proof.KMlp.lean ====
/-
  The two perceptron regions of the kernel program, read as whole arrays.

  Each region runs over twenty points; point `t` takes rows `5000 t … 5000 t + 4999` of its `[100000, 128]` input, the
  two weight matrices and the two bias rows whole, and writes the same rows of its output.  The body treats every row
  alike and on its own (a product with the first matrix, the first bias, a rectifier, a product with the second
  matrix, the second bias), so what point `t` writes is block `t` of ONE function of the region's arrays: the
  perceptron layer `mlp` over all the rows.  The blocks tile the output, so the output array ends holding that layer.
-/
import proofs.«108490_j24395414241389_1_alg».proof.Proof.Gen.KernelIdeal.Frame
import proofs.«108490_j24395414241389_1_alg».proof.Proof.Spec
import proofs.«108490_j24395414241389_1_alg».proof.Proof.LibRowMLP
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Cert.KernelIdeal.Facts₀ Cert.KernelIdeal.Facts Idealize.ShloMosaic
  Idealize.ShloMosaic.TcCoe Idealize.SL.Sem Cert.GinSpec
open Idealize.ShloMosaic.Pipeline (Dat Cfg Window)
open Idealize.ShloMosaic.ValueIdx Cert.LibFoldBias Cert.LibRowMLP Cert.LibPlainDot

/-! ## The bodies' values at an entry -/

/-- Entry `(p, q)` of what the first perceptron body stores is output `q` of the perceptron row on row `p` of its
    block of rows. -/
theorem pay0_apply (x0 : Vec Ideal S5000x128 .f32) (x1 : Vec Ideal S128x256 .f32) (x2 : Vec Ideal S1x256 .f32)
    (x3 : Vec Ideal S256x128 .f32) (x4 : Vec Ideal S1x128 .f32) (p : Fin 5000) (q : Fin 128) :
    k0_pay1 x0 x1 x2 x3 x4 (ix2 p q)
      = rowMLP (fun k => x0 (ix2 p k)) (fun k l => x1 (ix2 k l)) (fun l => x2 (ix2 (0 : Fin 1) l))
          (fun l q => x3 (ix2 l q)) (fun q => x4 (ix2 (0 : Fin 1) q)) q := by
  unfold k0_pay1
  simp only [shapeCast_self]
  exact mlp_vec_apply (ψ := .bf16) Gen.dot_S5000x128_S128x256_S5000x256_1_0_0_1_n_n_wf
    Gen.dot_S5000x256_S256x128_S5000x128_1_0_0_1_n_n_wf Gen.broadcasts_S1x256_S5000x256 Gen.broadcasts_S1x128_S5000x128
    (truncf .bf16 x0 Gen.bitsLt_bf16_f32) x1 x2 x3 x4 Gen.bitsLt_bf16_f32 Gen.bitsLt_bf16_f32 Gen.bitsLt_bf16_f32 p q

/-- Entry `(p, q)` of what the second perceptron body stores is output `q` of the perceptron row on row `p` of its
    block of rows. -/
theorem pay2_apply (x0 : Vec Ideal S5000x128 .f32) (x1 : Vec Ideal S128x256 .f32) (x2 : Vec Ideal S1x256 .f32)
    (x3 : Vec Ideal S256x128 .f32) (x4 : Vec Ideal S1x128 .f32) (p : Fin 5000) (q : Fin 128) :
    k2_pay1 x0 x1 x2 x3 x4 (ix2 p q)
      = rowMLP (fun k => x0 (ix2 p k)) (fun k l => x1 (ix2 k l)) (fun l => x2 (ix2 (0 : Fin 1) l))
          (fun l q => x3 (ix2 l q)) (fun q => x4 (ix2 (0 : Fin 1) q)) q := by
  unfold k2_pay1
  simp only [shapeCast_self]
  exact mlp_vec_apply (ψ := .bf16) Gen.dot_S5000x128_S128x256_S5000x256_1_0_0_1_n_n_wf
    Gen.dot_S5000x256_S256x128_S5000x128_1_0_0_1_n_n_wf Gen.broadcasts_S1x256_S5000x256 Gen.broadcasts_S1x128_S5000x128
    (truncf .bf16 x0 Gen.bitsLt_bf16_f32) x1 x2 x3 x4 Gen.bitsLt_bf16_f32 Gen.bitsLt_bf16_f32 Gen.bitsLt_bf16_f32 p q

/-- A perceptron row depends on its five arguments only through their values. -/
theorem rowMLP_congr {K L C : Nat} {X X' : Fin K → EReal} {W1 W1' : Fin K → Fin L → EReal} {b1 b1' : Fin L → EReal}
    {W2 W2' : Fin L → Fin C → EReal} {b2 b2' : Fin C → EReal} (hX : ∀ k, X k = X' k) (hW1 : ∀ k l, W1 k l = W1' k l)
    (hb1 : ∀ l, b1 l = b1' l) (hW2 : ∀ l q, W2 l q = W2' l q) (hb2 : ∀ q, b2 q = b2' q) (q : Fin C) :
    rowMLP X W1 b1 W2 b2 q = rowMLP X' W1' b1' W2' b2' q := by
  obtain rfl : X = X' := funext hX
  obtain rfl : W1 = W1' := funext fun k => funext (hW1 k)
  obtain rfl : b1 = b1' := funext hb1
  obtain rfl : W2 = W2' := funext fun l => funext (hW2 l)
  obtain rfl : b2 = b2' := funext hb2
  rfl

/-- The zero offsets of a whole-block rectangle, as a constant function. -/
theorem mlp_offsets_zero : (![0, 0] : Fin 2 → Nat) = fun _ => 0 := funext fun a => by fin_cases a <;> rfl

section Regions
variable (V : (c : Dev nD) → (b : Ref sig .tc) → Buf (Elt Ideal) ((c : Thread nD τ).loc b))

/-! ## The first perceptron region -/

/-- The block indices of the first region's windows, decided over its twenty points: the input's and the output's
    blocks of rows are block `t`; the weights and the biases are taken whole. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block of rows is some point's. -/
theorem blocks0_onto : ∀ r : Fin 20, ∃ t : Fin cfg0.N, win0_5.index t = ![r.val, 0] :=
  (by decide +kernel : ∀ r : Fin 20, ∃ t : Fin grid0.N, win0_5.index t = ![r.val, 0])

/-- What point `t` of the first region writes back is block `t` of the perceptron layer of the region's arrays. -/
theorem flushed0_eq (c : Dev nD) (t : Fin cfg0.N) :
    (dat0 (F := Ideal) V c).flushed 5 t = ((cfg0.win 5).blk t).view.read (Elt Ideal)
      (mlp (R := 100000) (K := 128) (L := 256) (C := 128) (V c main_v14) (V c main_arg3) (V c main_v15) (V c main_arg5)
        (V c main_v16)) := by
  show (cfg0.win 5).cut (grid0.coords t) ((dat0 V c).after 5 t) = _
  rw [after0_5]
  unfold out0_5
  rw [View.canon_unit_zero mlp_offsets_zero]
  simp only [View.ld_unit_zero (S := S5000x128) mlp_offsets_zero, View.ld_unit_zero (S := S128x256) mlp_offsets_zero,
    View.ld_unit_zero (S := S1x256) mlp_offsets_zero, View.ld_unit_zero (S := S256x128) mlp_offsets_zero,
    View.ld_unit_zero (S := S1x128) mlp_offsets_zero]
  obtain ⟨e00, e01, e10, e11, e20, e21, e30, e31, e40, e41, e50, e51⟩ := blocks0 t
  have ht : t.val < 20 := lt_of_lt_of_eq t.isLt N_0
  funext j
  obtain ⟨p, q, rfl⟩ : ∃ (p : Fin 5000) (q : Fin 128), j = ix2 p q := ⟨j 0, j 1, eq_ix2 j⟩
  refine (pay0_apply _ _ _ _ _ p q).trans ?_
  have h5 : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show _ = mlp (R := 100000) (K := 128) (L := 256) (C := 128) (V c main_v14) (V c main_arg3) (V c main_v15) (V c main_arg5)
      (V c main_v16) (((cfg0.win 5).blk t).view.emb (ix2 p q))
  rw [h5, mlp_apply]
  refine rowMLP_congr (fun k => ?_) (fun k l => ?_) (fun l => ?_) (fun l q' => ?_) (fun q' => ?_) q
  · show V c main_v14 (((cfg0.win 0).blk t).view.emb (ix2 p k)) = V c main_v14 (ix2 (⟨t.val * 5000 + p.val, by omega⟩ : Fin 100000) k)
    refine congrArg (V c main_v14) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg3 (((cfg0.win 1).blk t).view.emb (ix2 k l)) = V c main_arg3 (ix2 k l)
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 256 + 1 * l.val = l.val; omega
  · show V c main_v15 (((cfg0.win 2).blk t).view.emb (ix2 (0 : Fin 1) l)) = V c main_v15 (ix2 (0 : Fin 1) l)
    refine congrArg (V c main_v15) ?_
    funext a; apply Fin.ext
    match a with
    | ⟨0, _⟩ => show win0_2.index t (0 : Fin 2) * 1 + 1 * 0 = 0; omega
    | ⟨1, _⟩ => show win0_2.index t (1 : Fin 2) * 256 + 1 * l.val = l.val; omega
  · show V c main_arg5 (((cfg0.win 3).blk t).view.emb (ix2 l q')) = V c main_arg5 (ix2 l q')
    refine congrArg (V c main_arg5) ?_
    funext a; apply Fin.ext
    match a with
    | ⟨0, _⟩ => show win0_3.index t (0 : Fin 2) * 256 + 1 * l.val = l.val; omega
    | ⟨1, _⟩ => show win0_3.index t (1 : Fin 2) * 128 + 1 * q'.val = q'.val; omega
  · show V c main_v16 (((cfg0.win 4).blk t).view.emb (ix2 (0 : Fin 1) q')) = V c main_v16 (ix2 (0 : Fin 1) q')
    refine congrArg (V c main_v16) ?_
    funext a; apply Fin.ext
    match a with
    | ⟨0, _⟩ => show win0_4.index t (0 : Fin 2) * 1 + 1 * 0 = 0; omega
    | ⟨1, _⟩ => show win0_4.index t (1 : Fin 2) * 128 + 1 * q'.val = q'.val; omega

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v17).slice (win0_5.rect t)).set ↔ _
  rw [View.set_slice_whole, Rect.mem_set_unit]
  exact Iff.rfl

/-- The blocks of rows tile the output: row `r` is in the block of point `r / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := blocks0_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE FIRST PERCEPTRON REGION'S OUTPUT after its twenty points: the perceptron layer of the region's arrays. -/
theorem mlp0_value (c : Dev nD) :
    (dat0 (F := Ideal) V c).arrAt 5 cfg0.N
      = mlp (R := 100000) (K := 128) (L := 256) (C := 128) (V c main_v14) (V c main_arg3) (V c main_v15) (V c main_arg5)
          (V c main_v16) :=
  (dat0 V c).arrAt_eq_of_cover 5 _ (fun t _ => flushed0_eq V c t) cover0

/-! ## The second perceptron region -/

/-- The block indices of the second region's windows, decided over its twenty points: the input's and the output's
    blocks of rows are block `t`; the weights and the biases are taken whole. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block of rows is some point's. -/
theorem blocks2_onto : ∀ r : Fin 20, ∃ t : Fin cfg2.N, win2_5.index t = ![r.val, 0] :=
  (by decide +kernel : ∀ r : Fin 20, ∃ t : Fin grid2.N, win2_5.index t = ![r.val, 0])

/-- What point `t` of the second region writes back is block `t` of the perceptron layer of the region's arrays. -/
theorem flushed2_eq (c : Dev nD) (t : Fin cfg2.N) :
    (dat2 (F := Ideal) V c).flushed 5 t = ((cfg2.win 5).blk t).view.read (Elt Ideal)
      (mlp (R := 100000) (K := 128) (L := 256) (C := 128) (V c main_v46) (V c main_arg7) (V c main_v47) (V c main_arg9)
        (V c main_v48)) := by
  show (cfg2.win 5).cut (grid2.coords t) ((dat2 V c).after 5 t) = _
  rw [after2_5]
  unfold out2_5
  rw [View.canon_unit_zero mlp_offsets_zero]
  simp only [View.ld_unit_zero (S := S5000x128) mlp_offsets_zero, View.ld_unit_zero (S := S128x256) mlp_offsets_zero,
    View.ld_unit_zero (S := S1x256) mlp_offsets_zero, View.ld_unit_zero (S := S256x128) mlp_offsets_zero,
    View.ld_unit_zero (S := S1x128) mlp_offsets_zero]
  obtain ⟨e00, e01, e10, e11, e20, e21, e30, e31, e40, e41, e50, e51⟩ := blocks2 t
  have ht : t.val < 20 := lt_of_lt_of_eq t.isLt N_2
  funext j
  obtain ⟨p, q, rfl⟩ : ∃ (p : Fin 5000) (q : Fin 128), j = ix2 p q := ⟨j 0, j 1, eq_ix2 j⟩
  refine (pay2_apply _ _ _ _ _ p q).trans ?_
  have h5 : ((cfg2.win 5).blk t).view.emb (ix2 p q) = ix2 (⟨t.val * 5000 + p.val, by omega⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  show _ = mlp (R := 100000) (K := 128) (L := 256) (C := 128) (V c main_v46) (V c main_arg7) (V c main_v47) (V c main_arg9)
      (V c main_v48) (((cfg2.win 5).blk t).view.emb (ix2 p q))
  rw [h5, mlp_apply]
  refine rowMLP_congr (fun k => ?_) (fun k l => ?_) (fun l => ?_) (fun l q' => ?_) (fun q' => ?_) q
  · show V c main_v46 (((cfg2.win 0).blk t).view.emb (ix2 p k)) = V c main_v46 (ix2 (⟨t.val * 5000 + p.val, by omega⟩ : Fin 100000) k)
    refine congrArg (V c main_v46) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_arg7 (((cfg2.win 1).blk t).view.emb (ix2 k l)) = V c main_arg7 (ix2 k l)
    refine congrArg (V c main_arg7) ?_
    funext a; apply Fin.ext
    match a with
    | ⟨0, _⟩ => show win2_1.index t (0 : Fin 2) * 128 + 1 * k.val = k.val; omega
    | ⟨1, _⟩ => show win2_1.index t (1 : Fin 2) * 256 + 1 * l.val = l.val; omega
  · show V c main_v47 (((cfg2.win 2).blk t).view.emb (ix2 (0 : Fin 1) l)) = V c main_v47 (ix2 (0 : Fin 1) l)
    refine congrArg (V c main_v47) ?_
    funext a; apply Fin.ext
    match a with
    | ⟨0, _⟩ => show win2_2.index t (0 : Fin 2) * 1 + 1 * 0 = 0; omega
    | ⟨1, _⟩ => show win2_2.index t (1 : Fin 2) * 256 + 1 * l.val = l.val; omega
  · show V c main_arg9 (((cfg2.win 3).blk t).view.emb (ix2 l q')) = V c main_arg9 (ix2 l q')
    refine congrArg (V c main_arg9) ?_
    funext a; apply Fin.ext
    match a with
    | ⟨0, _⟩ => show win2_3.index t (0 : Fin 2) * 256 + 1 * l.val = l.val; omega
    | ⟨1, _⟩ => show win2_3.index t (1 : Fin 2) * 128 + 1 * q'.val = q'.val; omega
  · show V c main_v48 (((cfg2.win 4).blk t).view.emb (ix2 (0 : Fin 1) q')) = V c main_v48 (ix2 (0 : Fin 1) q')
    refine congrArg (V c main_v48) ?_
    funext a; apply Fin.ext
    match a with
    | ⟨0, _⟩ => show win2_4.index t (0 : Fin 2) * 1 + 1 * 0 = 0; omega
    | ⟨1, _⟩ => show win2_4.index t (1 : Fin 2) * 128 + 1 * q'.val = q'.val; omega

/-- An index of the output array is in point `t`'s block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v49).slice (win2_5.rect t)).set ↔ _
  rw [View.set_slice_whole, Rect.mem_set_unit]
  exact Iff.rfl

/-- The blocks of rows tile the output: row `r` is in the block of point `r / 5000`. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := blocks2_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- THE SECOND PERCEPTRON REGION'S OUTPUT after its twenty points: the perceptron layer of the region's arrays. -/
theorem mlp2_value (c : Dev nD) :
    (dat2 (F := Ideal) V c).arrAt 5 cfg2.N
      = mlp (R := 100000) (K := 128) (L := 256) (C := 128) (V c main_v46) (V c main_arg7) (V c main_v47) (V c main_arg9)
          (V c main_v48) :=
  (dat2 V c).arrAt_eq_of_cover 5 _ (fun t _ => flushed2_eq V c t) cover2

end Regions

end Cert.KernelIdeal.Layers

end
-- ==== Proof.KNorm.lean ====
/-
  The two normalisation regions of the kernel program, read as whole arrays.

  Each grid point of a normalisation region loads a block of 10000 rows of the activations and the four rows of column
  statistics (mean, inverse deviation, scale, shift), and stores, entry by entry, scale × (entry − mean) × inverse
  deviation + shift of the entry's column — followed, in the first region only, by the maximum with zero. The ten blocks
  tile the 100000 rows, so after the region the output array is that map of the whole input arrays.
-/
import proofs.«108490_j24395414241389_1_alg».proof.Proof.Gen.KernelIdeal.Frame
import proofs.«108490_j24395414241389_1_alg».proof.Proof.Spec
import proofs.«108490_j24395414241389_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Cert.KernelIdeal Cert.KernelIdeal.Gen Cert.KernelIdeal.Facts₀ Cert.KernelIdeal.Facts
open Idealize.ShloMosaic Idealize.ShloMosaic.TcCoe Idealize.SL.Sem Cert.GinSpec
open Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-! ## The first normalisation (with the rectifier) -/

/-- One entry of what a grid point stores: the affine map of the entry and of its column's four statistics, then the
    maximum with zero. -/
theorem pay1_at (x0 : Vec Ideal S10000x128 .f32) (g mean inv b : Vec Ideal S1x128 .f32) (p : Fin 10000) (q : Fin 128) :
    k1_pay1 (F := Ideal) x0 g mean inv b (ix2 p q)
      = max (normAt (x0 (ix2 p q)) (mean (ix2 (0 : Fin 1) q)) (inv (ix2 (0 : Fin 1) q)) (g (ix2 (0 : Fin 1) q)) (b (ix2 (0 : Fin 1) q))) 0 := by
  unfold k1_pay1 normAt
  simp only [maximumf_apply, addf_apply, mulf_apply, subf_apply, broadcast_apply, shapeCast_self]
  rw [broadcastTo_1b_ab_apply, broadcastTo_1b_ab_apply, broadcastTo_1b_ab_apply, broadcastTo_1b_ab_apply]
  exact congrArg (max _) Ideal.ofBits_zero_f32

/-- The rectified normalisation read at an index whose column is `q`. -/
theorem normRelu_at (h : FVec Ideal S100000x128 .f32) (mean inv g b : FVec Ideal S1x128 .f32) (i : S100000x128.Idx) (q : Fin 128)
    (hq : (i 1).val = q.val) :
    normRelu (R := 100000) (C := 128) h mean inv g b i
      = max (normAt (h i) (mean (ix2 (0 : Fin 1) q)) (inv (ix2 (0 : Fin 1) q)) (g (ix2 (0 : Fin 1) q)) (b (ix2 (0 : Fin 1) q))) 0 := by
  obtain ⟨P, Q, rfl⟩ : ∃ (P : Fin 100000) (Q : Fin 128), i = ix2 P Q := ⟨i 0, i 1, eq_ix2 i⟩
  obtain rfl : Q = q := Fin.ext hq
  rfl

/-- The block indices over the grid: the row blocks move with the point, the four rows of statistics stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The input's block at a point holds the array's entries where the output's block sits. -/
theorem blk1_0 (c : Dev nD) (t : Fin cfg1.N) (p : Fin 10000) (q : Fin 128) :
    iblk1 (F := Ideal) V c 0 t (ix2 p q) = V c main_v17 (((cfg1.win 5).blk t).view.emb (ix2 p q)) := by
  obtain ⟨e00, e01, -, -, -, -, -, -, -, -, e50, e51⟩ := idx_facts1 t
  show V c main_v17 (((cfg1.win 0).blk t).view.emb (ix2 p q)) = V c main_v17 (((cfg1.win 5).blk t).view.emb (ix2 p q))
  refine congrArg (V c main_v17) ?_
  funext a; apply Fin.ext
  match a with
  | ⟨0, _⟩ => show win1_0.index t (0 : Fin 2) * 10000 + 1 * p.val = win1_5.index t (0 : Fin 2) * 10000 + 1 * p.val; omega
  | ⟨1, _⟩ => show win1_0.index t (1 : Fin 2) * 128 + 1 * q.val = win1_5.index t (1 : Fin 2) * 128 + 1 * q.val; omega

theorem blk1_1 (c : Dev nD) (t : Fin cfg1.N) (q : Fin 128) :
    iblk1 (F := Ideal) V c 1 t (ix2 (0 : Fin 1) q) = V c main_v31 (ix2 (0 : Fin 1) q) := by
  obtain ⟨-, -, e0, e1, -, -, -, -, -, -, -, -⟩ := idx_facts1 t
  show V c main_v31 (((cfg1.win 1).blk t).view.emb (ix2 (0 : Fin 1) q)) = V c main_v31 (ix2 (0 : Fin 1) q)
  refine congrArg (V c main_v31) ?_
  funext a; apply Fin.ext
  match a with
  | ⟨0, _⟩ => show win1_1.index t (0 : Fin 2) * 1 + 1 * (0 : Fin 1).val = (0 : Fin 1).val; omega
  | ⟨1, _⟩ => show win1_1.index t (1 : Fin 2) * 128 + 1 * q.val = q.val; omega

theorem blk1_2 (c : Dev nD) (t : Fin cfg1.N) (q : Fin 128) :
    iblk1 (F := Ideal) V c 2 t (ix2 (0 : Fin 1) q) = V c main_v32 (ix2 (0 : Fin 1) q) := by
  obtain ⟨-, -, -, -, e0, e1, -, -, -, -, -, -⟩ := idx_facts1 t
  show V c main_v32 (((cfg1.win 2).blk t).view.emb (ix2 (0 : Fin 1) q)) = V c main_v32 (ix2 (0 : Fin 1) q)
  refine congrArg (V c main_v32) ?_
  funext a; apply Fin.ext
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

theorem blk1_3 (c : Dev nD) (t : Fin cfg1.N) (q : Fin 128) :
    iblk1 (F := Ideal) V c 3 t (ix2 (0 : Fin 1) q) = V c main_v33 (ix2 (0 : Fin 1) q) := by
  obtain ⟨-, -, -, -, -, -, e0, e1, -, -, -, -⟩ := idx_facts1 t
  show V c main_v33 (((cfg1.win 3).blk t).view.emb (ix2 (0 : Fin 1) q)) = V c main_v33 (ix2 (0 : Fin 1) q)
  refine congrArg (V c main_v33) ?_
  funext a; apply Fin.ext
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

theorem blk1_4 (c : Dev nD) (t : Fin cfg1.N) (q : Fin 128) :
    iblk1 (F := Ideal) V c 4 t (ix2 (0 : Fin 1) q) = V c main_v34 (ix2 (0 : Fin 1) q) := by
  obtain ⟨-, -, -, -, -, -, -, -, e0, e1, -, -⟩ := idx_facts1 t
  show V c main_v34 (((cfg1.win 4).blk t).view.emb (ix2 (0 : Fin 1) q)) = V c main_v34 (ix2 (0 : Fin 1) q)
  refine congrArg (V c main_v34) ?_
  funext a; apply Fin.ext
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-- What a grid point writes back is its block of rows of the rectified normalisation of the whole arrays. -/
theorem flushed1_eq (c : Dev nD) (t : Fin cfg1.N) :
    (dat1 (F := Ideal) V c).flushed 5 t = ((cfg1.win 5).blk t).view.read (Elt Ideal)
      (normRelu (R := 100000) (C := 128) (V c main_v17) (V c main_v31) (V c main_v32) (V c main_v33) (V c main_v34)) := by
  show (cfg1.win 5).cut (grid1.coords t) ((dat1 V c).after 5 t) = _
  rw [after1_5]
  unfold out1_5
  rw [View.canon_unit_zero hz]
  simp only [View.ld_unit_zero (S := S10000x128) hz, View.ld_unit_zero (S := S1x128) hz]
  obtain ⟨-, -, -, -, -, -, -, -, -, -, e50, e51⟩ := idx_facts1 t
  funext j
  obtain ⟨p, q, rfl⟩ : ∃ (p : Fin 10000) (q : Fin 128), j = ix2 p q := ⟨j 0, j 1, eq_ix2 j⟩
  refine (pay1_at (iblk1 V c 0 t) (iblk1 V c 3 t) (iblk1 V c 1 t) (iblk1 V c 2 t) (iblk1 V c 4 t) p q).trans ?_
  have hq : ((((cfg1.win 5).blk t).view.emb (ix2 p q)) 1).val = q.val := by
    show win1_5.index t (1 : Fin 2) * 128 + 1 * q.val = q.val; omega
  refine Eq.trans ?_ (normRelu_at (V c main_v17) (V c main_v31) (V c main_v32) (V c main_v33) (V c main_v34)
    (((cfg1.win 5).blk t).view.emb (ix2 p q)) q hq).symm
  rw [blk1_0 V c t p q, blk1_1 V c t q, blk1_2 V c t q, blk1_3 V c t q, blk1_4 V c t q]

/-- An index of the array is in a point's block iff each coordinate is in the block's range on its axis. -/
theorem mem_blk1 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v35).slice (win1_5.rect t)).set ↔ _
  rw [View.set_slice_whole, Rect.mem_set_unit]
  exact Iff.rfl

/-- Every row is in the block of the point numbered by the row's quotient by the block's height. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 10 := N_1
  refine ⟨⟨(i 0).val / 10000, by rw [hN]; omega⟩, flush1_5 _, ?_⟩
  obtain ⟨-, -, -, -, -, -, -, -, -, -, e50, e51⟩ := idx_facts1 ⟨(i 0).val / 10000, by rw [hN]; omega⟩
  rw [mem_blk1]
  intro a
  match a with
  | ⟨0, _⟩ =>
    show win1_5.index _ (0 : Fin 2) * 10000 ≤ (i 0).val ∧ (i 0).val < win1_5.index _ (0 : Fin 2) * 10000 + 10000
    rw [e50]; show (i 0).val / 10000 * 10000 ≤ (i 0).val ∧ (i 0).val < (i 0).val / 10000 * 10000 + 10000; omega
  | ⟨1, _⟩ =>
    show win1_5.index _ (1 : Fin 2) * 128 ≤ (i 1).val ∧ (i 1).val < win1_5.index _ (1 : Fin 2) * 128 + 128
    rw [e51]; omega

/-- After the region the output array holds the rectified normalisation of the whole arrays. -/
theorem norm1_value (c : Dev nD) :
    (dat1 (F := Ideal) V c).arrAt 5 cfg1.N
      = normRelu (R := 100000) (C := 128) (V c main_v17) (V c main_v31) (V c main_v32) (V c main_v33) (V c main_v34) :=
  (dat1 V c).arrAt_eq_of_cover 5 _ (fun t _ => flushed1_eq V c t) cover1

/-! ## The second normalisation (no rectifier) -/

/-- One entry of what a grid point stores: the affine map of the entry and of its column's four statistics. -/
theorem pay3_at (x0 : Vec Ideal S10000x128 .f32) (g mean inv b : Vec Ideal S1x128 .f32) (p : Fin 10000) (q : Fin 128) :
    k3_pay1 (F := Ideal) x0 g mean inv b (ix2 p q)
      = normAt (x0 (ix2 p q)) (mean (ix2 (0 : Fin 1) q)) (inv (ix2 (0 : Fin 1) q)) (g (ix2 (0 : Fin 1) q)) (b (ix2 (0 : Fin 1) q)) := by
  unfold k3_pay1 normAt
  simp only [addf_apply, mulf_apply, subf_apply, shapeCast_self]
  rw [broadcastTo_1b_ab_apply, broadcastTo_1b_ab_apply, broadcastTo_1b_ab_apply, broadcastTo_1b_ab_apply]

/-- The normalisation read at an index whose column is `q`. -/
theorem norm_at (h : FVec Ideal S100000x128 .f32) (mean inv g b : FVec Ideal S1x128 .f32) (i : S100000x128.Idx) (q : Fin 128)
    (hq : (i 1).val = q.val) :
    norm (R := 100000) (C := 128) h mean inv g b i
      = normAt (h i) (mean (ix2 (0 : Fin 1) q)) (inv (ix2 (0 : Fin 1) q)) (g (ix2 (0 : Fin 1) q)) (b (ix2 (0 : Fin 1) q)) := by
  obtain ⟨P, Q, rfl⟩ : ∃ (P : Fin 100000) (Q : Fin 128), i = ix2 P Q := ⟨i 0, i 1, eq_ix2 i⟩
  obtain rfl : Q = q := Fin.ext hq
  rfl

/-- The block indices over the grid: the row blocks move with the point, the four rows of statistics stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The input's block at a point holds the array's entries where the output's block sits. -/
theorem blk3_0 (c : Dev nD) (t : Fin cfg3.N) (p : Fin 10000) (q : Fin 128) :
    iblk3 (F := Ideal) V c 0 t (ix2 p q) = V c main_v49 (((cfg3.win 5).blk t).view.emb (ix2 p q)) := by
  obtain ⟨e00, e01, -, -, -, -, -, -, -, -, e50, e51⟩ := idx_facts3 t
  show V c main_v49 (((cfg3.win 0).blk t).view.emb (ix2 p q)) = V c main_v49 (((cfg3.win 5).blk t).view.emb (ix2 p q))
  refine congrArg (V c main_v49) ?_
  funext a; apply Fin.ext
  match a with
  | ⟨0, _⟩ => show win3_0.index t (0 : Fin 2) * 10000 + 1 * p.val = win3_5.index t (0 : Fin 2) * 10000 + 1 * p.val; omega
  | ⟨1, _⟩ => show win3_0.index t (1 : Fin 2) * 128 + 1 * q.val = win3_5.index t (1 : Fin 2) * 128 + 1 * q.val; omega

theorem blk3_1 (c : Dev nD) (t : Fin cfg3.N) (q : Fin 128) :
    iblk3 (F := Ideal) V c 1 t (ix2 (0 : Fin 1) q) = V c main_v63 (ix2 (0 : Fin 1) q) := by
  obtain ⟨-, -, e0, e1, -, -, -, -, -, -, -, -⟩ := idx_facts3 t
  show V c main_v63 (((cfg3.win 1).blk t).view.emb (ix2 (0 : Fin 1) q)) = V c main_v63 (ix2 (0 : Fin 1) q)
  refine congrArg (V c main_v63) ?_
  funext a; apply Fin.ext
  match a with
  | ⟨0, _⟩ => show win3_1.index t (0 : Fin 2) * 1 + 1 * (0 : Fin 1).val = (0 : Fin 1).val; omega
  | ⟨1, _⟩ => show win3_1.index t (1 : Fin 2) * 128 + 1 * q.val = q.val; omega

theorem blk3_2 (c : Dev nD) (t : Fin cfg3.N) (q : Fin 128) :
    iblk3 (F := Ideal) V c 2 t (ix2 (0 : Fin 1) q) = V c main_v64 (ix2 (0 : Fin 1) q) := by
  obtain ⟨-, -, -, -, e0, e1, -, -, -, -, -, -⟩ := idx_facts3 t
  show V c main_v64 (((cfg3.win 2).blk t).view.emb (ix2 (0 : Fin 1) q)) = V c main_v64 (ix2 (0 : Fin 1) q)
  refine congrArg (V c main_v64) ?_
  funext a; apply Fin.ext
  match a with
  | ⟨0, _⟩ => show win3_2.index t (0 : Fin 2) * 1 + 1 * (0 : Fin 1).val = (0 : Fin 1).val; omega
  | ⟨1, _⟩ => show win3_2.index t (1 : Fin 2) * 128 + 1 * q.val = q.val; omega

theorem blk3_3 (c : Dev nD) (t : Fin cfg3.N) (q : Fin 128) :
    iblk3 (F := Ideal) V c 3 t (ix2 (0 : Fin 1) q) = V c main_v65 (ix2 (0 : Fin 1) q) := by
  obtain ⟨-, -, -, -, -, -, e0, e1, -, -, -, -⟩ := idx_facts3 t
  show V c main_v65 (((cfg3.win 3).blk t).view.emb (ix2 (0 : Fin 1) q)) = V c main_v65 (ix2 (0 : Fin 1) q)
  refine congrArg (V c main_v65) ?_
  funext a; apply Fin.ext
  match a with
  | ⟨0, _⟩ => show win3_3.index t (0 : Fin 2) * 1 + 1 * (0 : Fin 1).val = (0 : Fin 1).val; omega
  | ⟨1, _⟩ => show win3_3.index t (1 : Fin 2) * 128 + 1 * q.val = q.val; omega

theorem blk3_4 (c : Dev nD) (t : Fin cfg3.N) (q : Fin 128) :
    iblk3 (F := Ideal) V c 4 t (ix2 (0 : Fin 1) q) = V c main_v66 (ix2 (0 : Fin 1) q) := by
  obtain ⟨-, -, -, -, -, -, -, -, e0, e1, -, -⟩ := idx_facts3 t
  show V c main_v66 (((cfg3.win 4).blk t).view.emb (ix2 (0 : Fin 1) q)) = V c main_v66 (ix2 (0 : Fin 1) q)
  refine congrArg (V c main_v66) ?_
  funext a; apply Fin.ext
  match a with
  | ⟨0, _⟩ => show win3_4.index t (0 : Fin 2) * 1 + 1 * (0 : Fin 1).val = (0 : Fin 1).val; omega
  | ⟨1, _⟩ => show win3_4.index t (1 : Fin 2) * 128 + 1 * q.val = q.val; omega

/-- What a grid point writes back is its block of rows of the normalisation of the whole arrays. -/
theorem flushed3_eq (c : Dev nD) (t : Fin cfg3.N) :
    (dat3 (F := Ideal) V c).flushed 5 t = ((cfg3.win 5).blk t).view.read (Elt Ideal)
      (norm (R := 100000) (C := 128) (V c main_v49) (V c main_v63) (V c main_v64) (V c main_v65) (V c main_v66)) := by
  show (cfg3.win 5).cut (grid3.coords t) ((dat3 V c).after 5 t) = _
  rw [after3_5]
  unfold out3_5
  rw [View.canon_unit_zero hz]
  simp only [View.ld_unit_zero (S := S10000x128) hz, View.ld_unit_zero (S := S1x128) hz]
  obtain ⟨-, -, -, -, -, -, -, -, -, -, e50, e51⟩ := idx_facts3 t
  funext j
  obtain ⟨p, q, rfl⟩ : ∃ (p : Fin 10000) (q : Fin 128), j = ix2 p q := ⟨j 0, j 1, eq_ix2 j⟩
  refine (pay3_at (iblk3 V c 0 t) (iblk3 V c 3 t) (iblk3 V c 1 t) (iblk3 V c 2 t) (iblk3 V c 4 t) p q).trans ?_
  have hq : ((((cfg3.win 5).blk t).view.emb (ix2 p q)) 1).val = q.val := by
    show win3_5.index t (1 : Fin 2) * 128 + 1 * q.val = q.val; omega
  refine Eq.trans ?_ (norm_at (V c main_v49) (V c main_v63) (V c main_v64) (V c main_v65) (V c main_v66)
    (((cfg3.win 5).blk t).view.emb (ix2 p q)) q hq).symm
  rw [blk3_0 V c t p q, blk3_1 V c t q, blk3_2 V c t q, blk3_3 V c t q, blk3_4 V c t q]

/-- An index of the array is in a point's block iff each coordinate is in the block's range on its axis. -/
theorem mem_blk3 (t : Fin cfg3.N) (i : S100000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v67).slice (win3_5.rect t)).set ↔ _
  rw [View.set_slice_whole, Rect.mem_set_unit]
  exact Iff.rfl

/-- Every row is in the block of the point numbered by the row's quotient by the block's height. -/
theorem cover3 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 10 := N_3
  refine ⟨⟨(i 0).val / 10000, by rw [hN]; omega⟩, flush3_5 _, ?_⟩
  obtain ⟨-, -, -, -, -, -, -, -, -, -, e50, e51⟩ := idx_facts3 ⟨(i 0).val / 10000, by rw [hN]; omega⟩
  rw [mem_blk3]
  intro a
  match a with
  | ⟨0, _⟩ =>
    show win3_5.index _ (0 : Fin 2) * 10000 ≤ (i 0).val ∧ (i 0).val < win3_5.index _ (0 : Fin 2) * 10000 + 10000
    rw [e50]; show (i 0).val / 10000 * 10000 ≤ (i 0).val ∧ (i 0).val < (i 0).val / 10000 * 10000 + 10000; omega
  | ⟨1, _⟩ =>
    show win3_5.index _ (1 : Fin 2) * 128 ≤ (i 1).val ∧ (i 1).val < win3_5.index _ (1 : Fin 2) * 128 + 128
    rw [e51]; omega

/-- After the region the output array holds the normalisation of the whole arrays. -/
theorem norm3_value (c : Dev nD) :
    (dat3 (F := Ideal) V c).arrAt 5 cfg3.N
      = norm (R := 100000) (C := 128) (V c main_v49) (V c main_v63) (V c main_v64) (V c main_v65) (V c main_v66) :=
  (dat3 V c).arrAt_eq_of_cover 5 _ (fun t _ => flushed3_eq V c t) cover3

end Cert.KernelIdeal.Layers

end
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«108490_j24395414241389_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibRowMin.lean ====
/- The lane MINIMUM along the second axis of a two-axis array, read at row p over the extended reals: min folded over the row
   from the initial word; the host's sum along that axis as the initial value plus the plain sum over the row; and a length-n vector viewed as an a × b array (n = a·b, rows of length b laid end to end), read at
   (p, k) as the vector's entry p·b + k. For any extents and element type. Names no program. -/
import proofs.«108490_j24395414241389_1_alg».proof.Proof.LibRowReduce
import Idealize.ShloMosaic.PureOps.Ideal
import Idealize.ShloMosaic.PureOps.Ideal.Laws
import Idealize.ShloMosaic.Lib.Pipeline.Value
import Idealize.ShloMosaic.Lib.ValueIdx

noncomputable section

namespace Cert.LibRowMin

open Idealize.ShloMosaic Idealize.ShloMosaic.ValueIdx

variable {a b : ℕ}

/-- The lane minimum of row p: min folded over the row from the initial word. -/
theorem rowMin_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.minimumf.neutral φ hφ) (p : Fin a) :
    multiReduction .minimumf [(1 : Fin 2)] ⟨1, ![a]⟩ src acc h hφ hacc (ix1 p)
      = (Finset.univ : Finset (Fin b)).fold min (FloatOps.ofBits (F := Ideal) φ acc) (fun k => src (ix2 p k)) := by
  rw [multiReduction_minimumf_eq_fold]
  refine (h.fold_filter_drop_single _ _ src (ix1 p)).trans ?_
  exact congrArg (fun f => (Finset.univ : Finset (Fin b)).fold min (FloatOps.ofBits (F := Ideal) φ acc) f)
    (funext fun k => congrArg src (Cert.LibRowReduce.lift_row h p k))

/-- The lane sum of row p of an f32 array from the zero word, with the side condition on the initial word spelt as an
    equation between the two literal words (the form a printed reduction carries). -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  Cert.LibRowReduce.rowSum_apply src 0x00000000#32 h hφ hacc p

/-- The lane minimum of row p of an f32 array from the word of +∞, the side condition spelt the same way. -/
theorem rowMin_f32 (src : FVec Ideal ⟨2, ![a, b]⟩ .f32)
    (h : (⟨2, ![a, b]⟩ : Shape).Reduces [(1 : Fin 2)] ⟨1, ![a]⟩) (hφ : FKind.Formats .f32)
    (hacc : (0x7F800000#32 : BitVec 32) = 0x7F800000#32) (p : Fin a) :
    multiReduction .minimumf [(1 : Fin 2)] ⟨1, ![a]⟩ src 0x7F800000#32 h hφ hacc (ix1 p)
      = (Finset.univ : Finset (Fin b)).fold min (Ideal.ofBits .f32 0x7F800000#32) (fun k => src (ix2 p k)) :=
  rowMin_apply src 0x7F800000#32 h hφ hacc p

/-- The HOST's sum along the second axis at row p: the initial value plus the plain sum over the row. -/
theorem hostRowSum_apply (x : (⟨2, ![a, b]⟩ : Shape).Idx → EReal) (init : EReal)
    (h' : (⟨2, ![a, b]⟩ : Shape).ReducesTo [(1 : Fin 2)] ⟨1, ![a]⟩) (h : (⟨2, ![a, b]⟩ : Shape).Reduces [(1 : Fin 2)] ⟨1, ![a]⟩)
    (p : Fin a) : Ideal.hostReduceAdd h' x init (ix1 p) = init + ∑ k : Fin b, x (ix2 p k) :=
  (Ideal.hostReduceAdd_single h' h x init (ix1 p)).trans
    (congrArg (fun z => init + z) (Finset.sum_congr rfl fun k _ => congrArg x (Cert.LibRowReduce.lift_row h p k)))

variable {α : Type}

/-- A vector of length n cast to an a × b array reads, at (p, k), the vector's entry q whenever q = p·b + k. -/
theorem shapeCast_n_ab_apply {n : ℕ} (v : (⟨1, ![n]⟩ : Shape).Idx → α)
    (h : (⟨1, ![n]⟩ : Shape).ShapeCasts ⟨2, ![a, b]⟩) (p : Fin a) (k : Fin b) (q : Fin n) (hq : q.val = p.val * b + k.val) :
    shapeCast ⟨2, ![a, b]⟩ v h (ix2 p k) = v (ix1 q) :=
  shapeCast_apply v h _ _ (by
    rw [Shape.rowMajor_val_two, Shape.rowMajor_val_one]
    exact hq)

end Cert.LibRowMin

end
-- ==== Proof.KDecode.lean ====
/-
  The decode region of the kernel program, read as a whole array.

  Each grid point loads the same block of 10000 rows of the two gathered endpoint arrays and stores, row by row, the sum
  over the 128 lanes of the entrywise product, as a column. The twenty blocks tile the 200000 rows, so after the region
  the output column holds the dot product of each row of the two whole arrays.
-/
import proofs.«108490_j24395414241389_1_alg».proof.Proof.Gen.KernelIdeal.Frame
import proofs.«108490_j24395414241389_1_alg».proof.Proof.Spec
import proofs.«108490_j24395414241389_1_alg».proof.Proof.LibColumn
import proofs.«108490_j24395414241389_1_alg».proof.Proof.LibRowMin
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Cert.KernelIdeal.Facts₀ Cert.KernelIdeal.Facts
open Idealize.ShloMosaic Idealize.ShloMosaic.TcCoe Idealize.SL.Sem Cert.GinSpec
open Idealize.ShloMosaic.ValueIdx
open Idealize.ShloMosaic.Pipeline (Dat Cfg Window)
open scoped BigOperators

variable (V : (c : Dev nD) → (b : Ref sig .tc) → Buf (Elt Ideal) ((c : Thread nD τ).loc b))

/-- The zero offsets of a whole-buffer access, however spelt. -/
theorem hz4 : (![0, 0] : Fin 2 → Nat) = fun _ => 0 := funext fun a => by fin_cases a <;> rfl

/-- One entry of what a grid point stores: the dot product of row `p` of its two blocks. -/
theorem pay4_at (x0 x1 : Vec Ideal S10000x128 .f32) (p : Fin 10000) (u : Fin 1) :
    k4_pay1 (F := Ideal) x0 x1 (ix2 p u) = ∑ k : Fin 128, x0 (ix2 p k) * x1 (ix2 p k) := by
  unfold k4_pay1
  refine (Cert.LibColumn.shapeCast_a_a1_apply _ Facts₀.shapeCasts_S10000_S10000x1 p u).trans ?_
  refine (Cert.LibRowMin.rowSum_f32 _ Facts₀.reduces_S10000x128_S10000 (.inl rfl) rfl p).trans ?_
  simp only [mulf_apply, shapeCast_self]

/-- The column of row dot products read at an index whose row is `P`. -/
theorem rowDot_at (a b : FVec Ideal S200000x128 .f32) (i : S200000x1.Idx) (P : Fin 200000) (hP : (i 0).val = P.val) :
    rowDot (R := 200000) (C := 128) a b i = ∑ k : Fin 128, a (ix2 P k) * b (ix2 P k) := by
  obtain ⟨P', u, rfl⟩ : ∃ (P' : Fin 200000) (u : Fin 1), i = ix2 P' u := ⟨i 0, i 1, eq_ix2 i⟩
  obtain rfl : P' = P := Fin.ext hP
  rfl

/-- The block indices over the grid: all three windows' row blocks move with the point. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The row of the whole arrays that row `p` of point `t`'s blocks is. -/
def rowOf (t : Fin cfg4.N) (p : Fin 10000) : Fin 200000 :=
  ⟨t.val * 10000 + p.val, by have h := t.isLt; have hN : cfg4.N = 20 := N_4; have hp := p.isLt; omega⟩

/-- Each input's block at a point holds that row of its array. -/
theorem blk4_0 (c : Dev nD) (t : Fin cfg4.N) (p : Fin 10000) (k : Fin 128) :
    iblk4 (F := Ideal) V c 0 t (ix2 p k) = V c main_v76 (ix2 (rowOf t p) k) := by
  obtain ⟨e00, e01, -, -, -, -⟩ := idx_facts4 t
  show V c main_v76 (((cfg4.win 0).blk t).view.emb (ix2 p k)) = V c main_v76 (ix2 (rowOf t p) k)
  refine congrArg (V c main_v76) ?_
  funext a; apply Fin.ext
  match a with
  | ⟨0, _⟩ => show win4_0.index t (0 : Fin 2) * 10000 + 1 * p.val = t.val * 10000 + p.val; omega
  | ⟨1, _⟩ => show win4_0.index t (1 : Fin 2) * 128 + 1 * k.val = k.val; omega

theorem blk4_1 (c : Dev nD) (t : Fin cfg4.N) (p : Fin 10000) (k : Fin 128) :
    iblk4 (F := Ideal) V c 1 t (ix2 p k) = V c main_v85 (ix2 (rowOf t p) k) := by
  obtain ⟨-, -, e10, e11, -, -⟩ := idx_facts4 t
  show V c main_v85 (((cfg4.win 1).blk t).view.emb (ix2 p k)) = V c main_v85 (ix2 (rowOf t p) k)
  refine congrArg (V c main_v85) ?_
  funext a; apply Fin.ext
  match a with
  | ⟨0, _⟩ => show win4_1.index t (0 : Fin 2) * 10000 + 1 * p.val = t.val * 10000 + p.val; omega
  | ⟨1, _⟩ => show win4_1.index t (1 : Fin 2) * 128 + 1 * k.val = k.val; omega

/-- What a grid point writes back is its block of the column of row dot products of the whole arrays. -/
theorem flushed4_eq (c : Dev nD) (t : Fin cfg4.N) :
    (dat4 (F := Ideal) V c).flushed 2 t = ((cfg4.win 2).blk t).view.read (Elt Ideal)
      (rowDot (R := 200000) (C := 128) (V c main_v76) (V c main_v85)) := by
  show (cfg4.win 2).cut (grid4.coords t) ((dat4 V c).after 2 t) = _
  rw [after4_2]
  unfold out4_2
  rw [View.canon_unit_zero hz4]
  simp only [View.ld_unit_zero (S := S10000x128) hz4]
  obtain ⟨-, -, -, -, e20, e21⟩ := idx_facts4 t
  funext j
  obtain ⟨p, u, rfl⟩ : ∃ (p : Fin 10000) (u : Fin 1), j = ix2 p u := ⟨j 0, j 1, eq_ix2 j⟩
  refine (pay4_at (iblk4 V c 0 t) (iblk4 V c 1 t) p u).trans ?_
  have hP : ((((cfg4.win 2).blk t).view.emb (ix2 p u)) 0).val = (rowOf t p).val := by
    show win4_2.index t (0 : Fin 2) * 10000 + 1 * p.val = t.val * 10000 + p.val; omega
  refine Eq.trans ?_ (rowDot_at (V c main_v76) (V c main_v85) (((cfg4.win 2).blk t).view.emb (ix2 p u)) (rowOf t p) hP).symm
  refine Finset.sum_congr rfl fun k _ => ?_
  rw [blk4_0 V c t p k, blk4_1 V c t p k]

/-- An index of the column is in a point's block iff each coordinate is in the block's range on its axis. -/
theorem mem_blk4 (t : Fin cfg4.N) (i : S200000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v86).slice (win4_2.rect t)).set ↔ _
  rw [View.set_slice_whole, Rect.mem_set_unit]
  exact Iff.rfl

/-- Every row is in the block of the point numbered by the row's quotient by the block's height. -/
theorem cover4 (i : S200000x1.Idx) : ∃ t : Fin cfg4.N, (cfg4.win 2).flush t = true ∧ i ∈ ((cfg4.win 2).blk t).view.set := by
  have hi0 : (i 0).val < 200000 := (i 0).isLt
  have hi1 : (i 1).val < 1 := (i 1).isLt
  have hN : cfg4.N = 20 := N_4
  refine ⟨⟨(i 0).val / 10000, by rw [hN]; omega⟩, flush4_2 _, ?_⟩
  obtain ⟨-, -, -, -, e20, e21⟩ := idx_facts4 ⟨(i 0).val / 10000, by rw [hN]; omega⟩
  rw [mem_blk4]
  intro a
  match a with
  | ⟨0, _⟩ =>
    show win4_2.index _ (0 : Fin 2) * 10000 ≤ (i 0).val ∧ (i 0).val < win4_2.index _ (0 : Fin 2) * 10000 + 10000
    rw [e20]; show (i 0).val / 10000 * 10000 ≤ (i 0).val ∧ (i 0).val < (i 0).val / 10000 * 10000 + 10000; omega
  | ⟨1, _⟩ =>
    show win4_2.index _ (1 : Fin 2) * 1 ≤ (i 1).val ∧ (i 1).val < win4_2.index _ (1 : Fin 2) * 1 + 1
    rw [e21]; omega

/-- After the region the output column holds the row dot products of the whole arrays. -/
theorem dot4_value (c : Dev nD) :
    (dat4 (F := Ideal) V c).arrAt 2 cfg4.N
      = rowDot (R := 200000) (C := 128) (V c main_v76) (V c main_v85) :=
  (dat4 V c).arrAt_eq_of_cover 2 _ (fun t _ => flushed4_eq V c t) cover4

end Cert.KernelIdeal.Layers

end
-- ==== Proof.KChain.lean ====
/-
  The idealized kernel's result as a function of its arguments.

  The run's buffer contents are a fold over eleven segments: six stretches of host operations and five kernel
  launches.  Reading it segment by segment from the launch memory: the first stretch leaves the first aggregation
  and the bias rows; the first launch the first perceptron's output `kH0`; the second stretch its column statistics as
  rows; the second launch the normalised, rectified activations `kX1`; then the same once more for the second layer,
  ending at the embedding `kZ`; the fifth stretch gathers the embedding's rows at the candidate edges' endpoints, the
  last launch takes their row dot products, and the last stretch hands them back as a vector.  A buffer a segment does
  not write is carried along unchanged.  Each launch's array is the layer of Spec.lean applied to the arrays the launch
  finds; each stretch's buffers are the shared host functions of Shared.lean.  The composition is `Net.net`.
-/
import proofs.«108490_j24395414241389_1_alg».proof.Proof.Gen.KernelIdeal.Frame
import proofs.«108490_j24395414241389_1_alg».proof.Proof.Shared
import proofs.«108490_j24395414241389_1_alg».proof.Proof.KHost0
import proofs.«108490_j24395414241389_1_alg».proof.Proof.KHost1
import proofs.«108490_j24395414241389_1_alg».proof.Proof.KHost2
import proofs.«108490_j24395414241389_1_alg».proof.Proof.KHost3
import proofs.«108490_j24395414241389_1_alg».proof.Proof.KMlp
import proofs.«108490_j24395414241389_1_alg».proof.Proof.KNorm
import proofs.«108490_j24395414241389_1_alg».proof.Proof.KDecode
import Idealize.ShloMosaic.Lib.Pipeline.Value
import Idealize.ShloMosaic.Lib.ValueIdx

set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.SL.Sem Cert.Net

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The first perceptron's output. -/
def kH0 : FVec Ideal S100000x128 .f32 :=
  hid0 (arg m c main_arg0) (arg m c main_arg1) (arg m c main_arg3) (arg m c main_arg4) (arg m c main_arg5) (arg m c main_arg6)
/-- The first layer's activations. -/
def kX1 : FVec Ideal S100000x128 .f32 := bnRelu (kH0 m c) (arg m c main_arg11) (arg m c main_arg12)
/-- The second perceptron's output. -/
def kH1 : FVec Ideal S100000x128 .f32 :=
  hid1 (kX1 m c) (arg m c main_arg1) (arg m c main_arg7) (arg m c main_arg8) (arg m c main_arg9) (arg m c main_arg10)
/-- The embedding. -/
def kZ : FVec Ideal S100000x128 .f32 := bn (kH1 m c) (arg m c main_arg13) (arg m c main_arg14)

/-! ## At the first launch's entry -/

theorem W1_v14 : W1 m ρ c (Proc.devRef .tc main_v14) = aggIdx (srcOf (arg m c main_arg1)) (dstOf (arg m c main_arg1)) (arg m c main_arg0) :=
  Stretch.s0_v14 (W0 m ρ c)

theorem W1_v15 : W1 m ρ c (Proc.devRef .tc main_v15) = row256 (arg m c main_arg4) :=
  Stretch.s0_v15 (W0 m ρ c)

theorem W1_v16 : W1 m ρ c (Proc.devRef .tc main_v16) = row128 (arg m c main_arg6) :=
  Stretch.s0_v16 (W0 m ρ c)

theorem W1_v1 : W1 m ρ c (Proc.devRef .tc main_v1) = srcOf (arg m c main_arg1) :=
  Stretch.s0_v1 (W0 m ρ c)

theorem W1_v3 : W1 m ρ c (Proc.devRef .tc main_v3) = dstOf (arg m c main_arg1) :=
  Stretch.s0_v3 (W0 m ρ c)

theorem W1_arg2 : W1 m ρ c (Proc.devRef .tc main_arg2) = (arg m c main_arg2) :=
  Stretch.s0_arg2 (W0 m ρ c)

theorem W1_arg3 : W1 m ρ c (Proc.devRef .tc main_arg3) = (arg m c main_arg3) :=
  Stretch.s0_arg3 (W0 m ρ c)

theorem W1_arg5 : W1 m ρ c (Proc.devRef .tc main_arg5) = (arg m c main_arg5) :=
  Stretch.s0_arg5 (W0 m ρ c)

theorem W1_arg7 : W1 m ρ c (Proc.devRef .tc main_arg7) = (arg m c main_arg7) :=
  Stretch.s0_arg7 (W0 m ρ c)

theorem W1_arg8 : W1 m ρ c (Proc.devRef .tc main_arg8) = (arg m c main_arg8) :=
  Stretch.s0_arg8 (W0 m ρ c)

theorem W1_arg9 : W1 m ρ c (Proc.devRef .tc main_arg9) = (arg m c main_arg9) :=
  Stretch.s0_arg9 (W0 m ρ c)

theorem W1_arg10 : W1 m ρ c (Proc.devRef .tc main_arg10) = (arg m c main_arg10) :=
  Stretch.s0_arg10 (W0 m ρ c)

theorem W1_arg11 : W1 m ρ c (Proc.devRef .tc main_arg11) = (arg m c main_arg11) :=
  Stretch.s0_arg11 (W0 m ρ c)

theorem W1_arg12 : W1 m ρ c (Proc.devRef .tc main_arg12) = (arg m c main_arg12) :=
  Stretch.s0_arg12 (W0 m ρ c)

theorem W1_arg13 : W1 m ρ c (Proc.devRef .tc main_arg13) = (arg m c main_arg13) :=
  Stretch.s0_arg13 (W0 m ρ c)

theorem W1_arg14 : W1 m ρ c (Proc.devRef .tc main_arg14) = (arg m c main_arg14) :=
  Stretch.s0_arg14 (W0 m ρ c)

/-! ## After the first launch: the first perceptron's output -/

theorem W2_v17 : W2 m ρ c (Proc.devRef .tc main_v17) = kH0 m c := by
  refine (W2_arr m ρ c 5).trans ((Layers.mlp0_value (V1 m ρ) c).trans ?_)
  show GinSpec.mlp (R := 100000) (K := 128) (L := 256) (C := 128) (W1 m ρ c (Proc.devRef .tc main_v14)) (W1 m ρ c (Proc.devRef .tc main_arg3)) (W1 m ρ c (Proc.devRef .tc main_v15)) (W1 m ρ c (Proc.devRef .tc main_arg5)) (W1 m ρ c (Proc.devRef .tc main_v16)) = _
  rw [W1_v14, W1_arg3, W1_v15, W1_arg5, W1_v16]
  rfl

theorem W2_v1 : W2 m ρ c (Proc.devRef .tc main_v1) = srcOf (arg m c main_arg1) :=
  (W2_of_ne m ρ c main_v1 (by decide)).trans (W1_v1 m ρ c)

theorem W2_v3 : W2 m ρ c (Proc.devRef .tc main_v3) = dstOf (arg m c main_arg1) :=
  (W2_of_ne m ρ c main_v3 (by decide)).trans (W1_v3 m ρ c)

theorem W2_arg2 : W2 m ρ c (Proc.devRef .tc main_arg2) = (arg m c main_arg2) :=
  (W2_of_ne m ρ c main_arg2 (by decide)).trans (W1_arg2 m ρ c)

theorem W2_arg7 : W2 m ρ c (Proc.devRef .tc main_arg7) = (arg m c main_arg7) :=
  (W2_of_ne m ρ c main_arg7 (by decide)).trans (W1_arg7 m ρ c)

theorem W2_arg8 : W2 m ρ c (Proc.devRef .tc main_arg8) = (arg m c main_arg8) :=
  (W2_of_ne m ρ c main_arg8 (by decide)).trans (W1_arg8 m ρ c)

theorem W2_arg9 : W2 m ρ c (Proc.devRef .tc main_arg9) = (arg m c main_arg9) :=
  (W2_of_ne m ρ c main_arg9 (by decide)).trans (W1_arg9 m ρ c)

theorem W2_arg10 : W2 m ρ c (Proc.devRef .tc main_arg10) = (arg m c main_arg10) :=
  (W2_of_ne m ρ c main_arg10 (by decide)).trans (W1_arg10 m ρ c)

theorem W2_arg11 : W2 m ρ c (Proc.devRef .tc main_arg11) = (arg m c main_arg11) :=
  (W2_of_ne m ρ c main_arg11 (by decide)).trans (W1_arg11 m ρ c)

theorem W2_arg12 : W2 m ρ c (Proc.devRef .tc main_arg12) = (arg m c main_arg12) :=
  (W2_of_ne m ρ c main_arg12 (by decide)).trans (W1_arg12 m ρ c)

theorem W2_arg13 : W2 m ρ c (Proc.devRef .tc main_arg13) = (arg m c main_arg13) :=
  (W2_of_ne m ρ c main_arg13 (by decide)).trans (W1_arg13 m ρ c)

theorem W2_arg14 : W2 m ρ c (Proc.devRef .tc main_arg14) = (arg m c main_arg14) :=
  (W2_of_ne m ρ c main_arg14 (by decide)).trans (W1_arg14 m ρ c)

/-! ## At the second launch's entry -/

theorem W3_v17 : W3 m ρ c (Proc.devRef .tc main_v17) = kH0 m c :=
  (Stretch.s1_v17 (W2 m ρ c)).trans (W2_v17 m ρ c)

theorem W3_v31 : W3 m ρ c (Proc.devRef .tc main_v31) = row128 (mean (kH0 m c)) :=
  (Stretch.s1_v31 (W2 m ρ c)).trans (congrArg (fun h => row128 (mean h)) (W2_v17 m ρ c))

theorem W3_v32 : W3 m ρ c (Proc.devRef .tc main_v32) = row128 (invStd (kH0 m c)) :=
  (Stretch.s1_v32 (W2 m ρ c)).trans (congrArg (fun h => row128 (invStd h)) (W2_v17 m ρ c))

theorem W3_v33 : W3 m ρ c (Proc.devRef .tc main_v33) = row128 (arg m c main_arg11) :=
  (Stretch.s1_v33 (W2 m ρ c)).trans (congrArg row128 (W2_arg11 m ρ c))

theorem W3_v34 : W3 m ρ c (Proc.devRef .tc main_v34) = row128 (arg m c main_arg12) :=
  (Stretch.s1_v34 (W2 m ρ c)).trans (congrArg row128 (W2_arg12 m ρ c))

theorem W3_v1 : W3 m ρ c (Proc.devRef .tc main_v1) = srcOf (arg m c main_arg1) :=
  (Stretch.s1_v1 (W2 m ρ c)).trans (W2_v1 m ρ c)

theorem W3_v3 : W3 m ρ c (Proc.devRef .tc main_v3) = dstOf (arg m c main_arg1) :=
  (Stretch.s1_v3 (W2 m ρ c)).trans (W2_v3 m ρ c)

theorem W3_arg2 : W3 m ρ c (Proc.devRef .tc main_arg2) = (arg m c main_arg2) :=
  (Stretch.s1_arg2 (W2 m ρ c)).trans (W2_arg2 m ρ c)

theorem W3_arg7 : W3 m ρ c (Proc.devRef .tc main_arg7) = (arg m c main_arg7) :=
  (Stretch.s1_arg7 (W2 m ρ c)).trans (W2_arg7 m ρ c)

theorem W3_arg8 : W3 m ρ c (Proc.devRef .tc main_arg8) = (arg m c main_arg8) :=
  (Stretch.s1_arg8 (W2 m ρ c)).trans (W2_arg8 m ρ c)

theorem W3_arg9 : W3 m ρ c (Proc.devRef .tc main_arg9) = (arg m c main_arg9) :=
  (Stretch.s1_arg9 (W2 m ρ c)).trans (W2_arg9 m ρ c)

theorem W3_arg10 : W3 m ρ c (Proc.devRef .tc main_arg10) = (arg m c main_arg10) :=
  (Stretch.s1_arg10 (W2 m ρ c)).trans (W2_arg10 m ρ c)

theorem W3_arg13 : W3 m ρ c (Proc.devRef .tc main_arg13) = (arg m c main_arg13) :=
  (Stretch.s1_arg13 (W2 m ρ c)).trans (W2_arg13 m ρ c)

theorem W3_arg14 : W3 m ρ c (Proc.devRef .tc main_arg14) = (arg m c main_arg14) :=
  (Stretch.s1_arg14 (W2 m ρ c)).trans (W2_arg14 m ρ c)

/-! ## After the second launch: the first layer's activations -/

theorem W4_v35 : W4 m ρ c (Proc.devRef .tc main_v35) = kX1 m c := by
  refine (W4_arr m ρ c 5).trans ((Layers.norm1_value (V3 m ρ) c).trans ?_)
  show GinSpec.normRelu (R := 100000) (C := 128) (W3 m ρ c (Proc.devRef .tc main_v17)) (W3 m ρ c (Proc.devRef .tc main_v31)) (W3 m ρ c (Proc.devRef .tc main_v32)) (W3 m ρ c (Proc.devRef .tc main_v33)) (W3 m ρ c (Proc.devRef .tc main_v34)) = _
  rw [W3_v17, W3_v31, W3_v32, W3_v33, W3_v34]
  rfl

theorem W4_v1 : W4 m ρ c (Proc.devRef .tc main_v1) = srcOf (arg m c main_arg1) :=
  (W4_of_ne m ρ c main_v1 (by decide)).trans (W3_v1 m ρ c)

theorem W4_v3 : W4 m ρ c (Proc.devRef .tc main_v3) = dstOf (arg m c main_arg1) :=
  (W4_of_ne m ρ c main_v3 (by decide)).trans (W3_v3 m ρ c)

theorem W4_arg2 : W4 m ρ c (Proc.devRef .tc main_arg2) = (arg m c main_arg2) :=
  (W4_of_ne m ρ c main_arg2 (by decide)).trans (W3_arg2 m ρ c)

theorem W4_arg7 : W4 m ρ c (Proc.devRef .tc main_arg7) = (arg m c main_arg7) :=
  (W4_of_ne m ρ c main_arg7 (by decide)).trans (W3_arg7 m ρ c)

theorem W4_arg8 : W4 m ρ c (Proc.devRef .tc main_arg8) = (arg m c main_arg8) :=
  (W4_of_ne m ρ c main_arg8 (by decide)).trans (W3_arg8 m ρ c)

theorem W4_arg9 : W4 m ρ c (Proc.devRef .tc main_arg9) = (arg m c main_arg9) :=
  (W4_of_ne m ρ c main_arg9 (by decide)).trans (W3_arg9 m ρ c)

theorem W4_arg10 : W4 m ρ c (Proc.devRef .tc main_arg10) = (arg m c main_arg10) :=
  (W4_of_ne m ρ c main_arg10 (by decide)).trans (W3_arg10 m ρ c)

theorem W4_arg13 : W4 m ρ c (Proc.devRef .tc main_arg13) = (arg m c main_arg13) :=
  (W4_of_ne m ρ c main_arg13 (by decide)).trans (W3_arg13 m ρ c)

theorem W4_arg14 : W4 m ρ c (Proc.devRef .tc main_arg14) = (arg m c main_arg14) :=
  (W4_of_ne m ρ c main_arg14 (by decide)).trans (W3_arg14 m ρ c)

/-! ## At the third launch's entry -/

theorem W5_v46 : W5 m ρ c (Proc.devRef .tc main_v46) = aggIdx (srcOf (arg m c main_arg1)) (dstOf (arg m c main_arg1)) (kX1 m c) := by
  refine (Stretch.s2_v46 (W4 m ρ c)).trans ?_
  rw [W4_v1, W4_v3, W4_v35]

theorem W5_v47 : W5 m ρ c (Proc.devRef .tc main_v47) = row256 (arg m c main_arg8) :=
  (Stretch.s2_v47 (W4 m ρ c)).trans (congrArg row256 (W4_arg8 m ρ c))

theorem W5_v48 : W5 m ρ c (Proc.devRef .tc main_v48) = row128 (arg m c main_arg10) :=
  (Stretch.s2_v48 (W4 m ρ c)).trans (congrArg row128 (W4_arg10 m ρ c))

theorem W5_arg7 : W5 m ρ c (Proc.devRef .tc main_arg7) = (arg m c main_arg7) :=
  (Stretch.s2_arg7 (W4 m ρ c)).trans (W4_arg7 m ρ c)

theorem W5_arg9 : W5 m ρ c (Proc.devRef .tc main_arg9) = (arg m c main_arg9) :=
  (Stretch.s2_arg9 (W4 m ρ c)).trans (W4_arg9 m ρ c)

theorem W5_arg2 : W5 m ρ c (Proc.devRef .tc main_arg2) = (arg m c main_arg2) :=
  (Stretch.s2_arg2 (W4 m ρ c)).trans (W4_arg2 m ρ c)

theorem W5_arg13 : W5 m ρ c (Proc.devRef .tc main_arg13) = (arg m c main_arg13) :=
  (Stretch.s2_arg13 (W4 m ρ c)).trans (W4_arg13 m ρ c)

theorem W5_arg14 : W5 m ρ c (Proc.devRef .tc main_arg14) = (arg m c main_arg14) :=
  (Stretch.s2_arg14 (W4 m ρ c)).trans (W4_arg14 m ρ c)

/-! ## After the third launch: the second perceptron's output -/

theorem W6_v49 : W6 m ρ c (Proc.devRef .tc main_v49) = kH1 m c := by
  refine (W6_arr m ρ c 5).trans ((Layers.mlp2_value (V5 m ρ) c).trans ?_)
  show GinSpec.mlp (R := 100000) (K := 128) (L := 256) (C := 128) (W5 m ρ c (Proc.devRef .tc main_v46)) (W5 m ρ c (Proc.devRef .tc main_arg7)) (W5 m ρ c (Proc.devRef .tc main_v47)) (W5 m ρ c (Proc.devRef .tc main_arg9)) (W5 m ρ c (Proc.devRef .tc main_v48)) = _
  rw [W5_v46, W5_arg7, W5_v47, W5_arg9, W5_v48]
  rfl

theorem W6_arg2 : W6 m ρ c (Proc.devRef .tc main_arg2) = (arg m c main_arg2) :=
  (W6_of_ne m ρ c main_arg2 (by decide)).trans (W5_arg2 m ρ c)

theorem W6_arg13 : W6 m ρ c (Proc.devRef .tc main_arg13) = (arg m c main_arg13) :=
  (W6_of_ne m ρ c main_arg13 (by decide)).trans (W5_arg13 m ρ c)

theorem W6_arg14 : W6 m ρ c (Proc.devRef .tc main_arg14) = (arg m c main_arg14) :=
  (W6_of_ne m ρ c main_arg14 (by decide)).trans (W5_arg14 m ρ c)

/-! ## At the fourth launch's entry -/

theorem W7_v49 : W7 m ρ c (Proc.devRef .tc main_v49) = kH1 m c :=
  (Stretch.s3_v49 (W6 m ρ c)).trans (W6_v49 m ρ c)

theorem W7_v63 : W7 m ρ c (Proc.devRef .tc main_v63) = row128 (mean (kH1 m c)) :=
  (Stretch.s3_v63 (W6 m ρ c)).trans (congrArg (fun h => row128 (mean h)) (W6_v49 m ρ c))

theorem W7_v64 : W7 m ρ c (Proc.devRef .tc main_v64) = row128 (invStd (kH1 m c)) :=
  (Stretch.s3_v64 (W6 m ρ c)).trans (congrArg (fun h => row128 (invStd h)) (W6_v49 m ρ c))

theorem W7_v65 : W7 m ρ c (Proc.devRef .tc main_v65) = row128 (arg m c main_arg13) :=
  (Stretch.s3_v65 (W6 m ρ c)).trans (congrArg row128 (W6_arg13 m ρ c))

theorem W7_v66 : W7 m ρ c (Proc.devRef .tc main_v66) = row128 (arg m c main_arg14) :=
  (Stretch.s3_v66 (W6 m ρ c)).trans (congrArg row128 (W6_arg14 m ρ c))

theorem W7_arg2 : W7 m ρ c (Proc.devRef .tc main_arg2) = (arg m c main_arg2) :=
  (Stretch.s3_arg2 (W6 m ρ c)).trans (W6_arg2 m ρ c)

/-! ## After the fourth launch: the embedding -/

theorem W8_v67 : W8 m ρ c (Proc.devRef .tc main_v67) = kZ m c := by
  refine (W8_arr m ρ c 5).trans ((Layers.norm3_value (V7 m ρ) c).trans ?_)
  show GinSpec.norm (R := 100000) (C := 128) (W7 m ρ c (Proc.devRef .tc main_v49)) (W7 m ρ c (Proc.devRef .tc main_v63)) (W7 m ρ c (Proc.devRef .tc main_v64)) (W7 m ρ c (Proc.devRef .tc main_v65)) (W7 m ρ c (Proc.devRef .tc main_v66)) = _
  rw [W7_v49, W7_v63, W7_v64, W7_v65, W7_v66]
  rfl

theorem W8_arg2 : W8 m ρ c (Proc.devRef .tc main_arg2) = (arg m c main_arg2) :=
  (W8_of_ne m ρ c main_arg2 (by decide)).trans (W7_arg2 m ρ c)

/-! ## At the last launch's entry: the endpoint rows -/

theorem W9_v76 : W9 m ρ c (Proc.devRef .tc main_v76) = endpoint (kZ m c) (endRow0 (arg m c main_arg2)) := by
  refine (Stretch.s4_v76 (W8 m ρ c)).trans ?_
  rw [W8_v67, W8_arg2]

theorem W9_v85 : W9 m ρ c (Proc.devRef .tc main_v85) = endpoint (kZ m c) (endRow1 (arg m c main_arg2)) := by
  refine (Stretch.s4_v85 (W8 m ρ c)).trans ?_
  rw [W8_v67, W8_arg2]

/-! ## After the last launch: the scores as a column; then as a vector -/

theorem W10_v86 : W10 m ρ c (Proc.devRef .tc main_v86) = GinSpec.rowDot (R := 200000) (C := 128) (endpoint (kZ m c) (endRow0 (arg m c main_arg2))) (endpoint (kZ m c) (endRow1 (arg m c main_arg2))) := by
  refine (W10_arr m ρ c 2).trans ((Layers.dot4_value (V9 m ρ) c).trans ?_)
  show GinSpec.rowDot (R := 200000) (C := 128) (W9 m ρ c (Proc.devRef .tc main_v76)) (W9 m ρ c (Proc.devRef .tc main_v85)) = _
  rw [W9_v76, W9_v85]

/-- The column of row dot products, cast to a vector, is the vector of row dot products. -/
theorem cast_rowDot (x y : FVec Ideal S200000x128 .f32) :
    shapeCast S200000 (GinSpec.rowDot (R := 200000) (C := 128) x y) Facts₀.shapeCasts_S200000x1_S200000 = GinSpec.dotRows (R := 200000) (C := 128) x y := by
  funext i
  obtain ⟨p, rfl⟩ : ∃ p : Fin 200000, i = ValueIdx.ix1 p := ⟨i 0, ValueIdx.eq_ix1 i⟩
  refine (shapeCast_apply _ Facts₀.shapeCasts_S200000x1_S200000 (ValueIdx.ix1 p) (ValueIdx.ix2 p (0 : Fin 1)) ?_).trans rfl
  rw [Shape.rowMajor_val_two, Shape.rowMajor_val_one]
  show p.val * 1 + 0 = p.val
  omega

theorem W11_v87 : W11 m ρ c (Proc.devRef .tc main_v87) = score (kZ m c) (arg m c main_arg2) := by
  refine (Stretch.s5_v87 (W10 m ρ c)).trans ?_
  rw [W10_v86]
  exact cast_rowDot _ _

/-- THE KERNEL'S RESULT: what the last stretch leaves in the result buffer is the network of the arguments as launched. -/
theorem result : W11 m ρ c (Proc.devRef .tc main_v87)
    = net (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) :=
  (W11_v87 m ρ c).trans rfl

end Cert.KernelIdeal.Chain

end
-- ==== Proof.RNet.lean ====
/-
  The reference program computes the network.

  The reference is read one operation at a time.  Its aggregations, column statistics and endpoint gathers are, term
  for term, the shared host operations; each of its three kinds of layer is read entry by entry:

  * the perceptron stage (product, bias row, rectifier, product, bias row) at `(p, q)` is the perceptron row run on
    row `p` of the aggregated features;
  * the normalisation stage at `(p, q)` is `(g q * (h (p, q) - mean q)) * inv q + b q`, with the maximum with zero
    after the first layer;
  * the score of candidate edge `p` is zero plus the sum over the columns of the product of the two endpoint rows.

  Both sides are the same expressions spelt differently, so nothing needs to be finite.
-/
import proofs.«108490_j24395414241389_1_alg».proof.Proof.Gen.ReferenceIdeal.Read
import proofs.«108490_j24395414241389_1_alg».proof.Proof.Shared
import proofs.«108490_j24395414241389_1_alg».proof.Proof.LibRowMLP
import proofs.«108490_j24395414241389_1_alg».proof.Proof.LibRowMin
import proofs.«108490_j24395414241389_1_alg».proof.Proof.LibColumn
import Idealize.ShloMosaic.Lib.ValueIdx
import Idealize.ShloMosaic.Lib.ValueLayout
import Idealize.ShloMosaic.Lib.Pipeline.Value

noncomputable section

open scoped BigOperators

namespace Cert.ReferenceIdeal.Bridge

open Cert.ReferenceIdeal.Read Cert.Net Idealize.ShloMosaic Idealize.ShloMosaic.ValueIdx

variable (x0 : FVec Ideal Cert.KernelIdeal.S100000x128 .f32) (x1 : IVec Cert.KernelIdeal.S2x600000 32)
  (x2 : IVec Cert.KernelIdeal.S2x200000 32)
  (x3 : FVec Ideal Cert.KernelIdeal.S128x256 .f32) (x4 : FVec Ideal Cert.KernelIdeal.S256 .f32)
  (x5 : FVec Ideal Cert.KernelIdeal.S256x128 .f32) (x6 : FVec Ideal Cert.KernelIdeal.S128 .f32)
  (x7 : FVec Ideal Cert.KernelIdeal.S128x256 .f32) (x8 : FVec Ideal Cert.KernelIdeal.S256 .f32)
  (x9 : FVec Ideal Cert.KernelIdeal.S256x128 .f32)
  (x10 x11 x12 x13 x14 : FVec Ideal Cert.KernelIdeal.S128 .f32)

/-! ## The operations the two programs share -/

/-- The first aggregation. -/
theorem ref_v14 : val_main_v14 (F := Ideal) x0 x1 = aggIdx (srcOf x1) (dstOf x1) x0 := rfl

/-- The first layer's column means. -/
theorem ref_v26 : val_main_v26 (F := Ideal) x0 x1 x3 x4 x5 x6 = mean (val_main_v23 (F := Ideal) x0 x1 x3 x4 x5 x6) := rfl

/-- The first layer's reciprocal standard deviations. -/
theorem ref_v42 : val_main_v42 (F := Ideal) x0 x1 x3 x4 x5 x6 = invStd (val_main_v23 (F := Ideal) x0 x1 x3 x4 x5 x6) := rfl

/-- The second aggregation. -/
theorem ref_v60 : val_main_v60 (F := Ideal) x0 x1 x3 x4 x5 x6 x11 x12
    = aggIdx (srcOf x1) (dstOf x1) (val_main_v49 (F := Ideal) x0 x1 x3 x4 x5 x6 x11 x12) := rfl

/-- The second layer's column means. -/
theorem ref_v72 : val_main_v72 (F := Ideal) x0 x1 x3 x4 x5 x6 x7 x8 x9 x10 x11 x12
    = mean (val_main_v69 (F := Ideal) x0 x1 x3 x4 x5 x6 x7 x8 x9 x10 x11 x12) := rfl

/-- The second layer's reciprocal standard deviations. -/
theorem ref_v88 : val_main_v88 (F := Ideal) x0 x1 x3 x4 x5 x6 x7 x8 x9 x10 x11 x12
    = invStd (val_main_v69 (F := Ideal) x0 x1 x3 x4 x5 x6 x7 x8 x9 x10 x11 x12) := rfl

/-- The embedding's rows at the candidate edges' first endpoints. -/
theorem ref_v103 : val_main_v103 (F := Ideal) x0 x1 x2 x3 x4 x5 x6 x7 x8 x9 x10 x11 x12 x13 x14
    = endpoint (val_main_v94 (F := Ideal) x0 x1 x3 x4 x5 x6 x7 x8 x9 x10 x11 x12 x13 x14) (endRow0 x2) := rfl

/-- The embedding's rows at the candidate edges' second endpoints. -/
theorem ref_v112 : val_main_v112 (F := Ideal) x0 x1 x2 x3 x4 x5 x6 x7 x8 x9 x10 x11 x12 x13 x14
    = endpoint (val_main_v94 (F := Ideal) x0 x1 x3 x4 x5 x6 x7 x8 x9 x10 x11 x12 x13 x14) (endRow1 x2) := rfl

/-! ## Bias and statistic rows read at an entry -/

section Rows

open Cert.ReferenceIdeal.Facts₀ Cert.ReferenceIdeal.Facts

/-- A vector of length 128 set up as a row and broadcast over the rows reads, at `(p, q)`, its entry `q`. -/
theorem rows128_apply (v : FVec Ideal Cert.KernelIdeal.S128 .f32) (p : Fin 100000) (q : Fin 128) :
    broadcastInDim S100000x128 ![0, 1] bcast_S1x128_S100000x128_0_1 (broadcastInDim S1x128 ![1] bcast_S128_S1x128_1 v) (ix2 p q)
      = v (ix1 q) :=
  (Cert.LibColumn.bcastInDim_1b_ab_apply _ bcast_S1x128_S100000x128_0_1 p q).trans
    (Cert.LibColumn.bcastInDim_b_1b_apply v bcast_S128_S1x128_1 (0 : Fin 1) q)

/-- A vector of length 128 as a row reads, at `(0, q)`, its entry `q`. -/
theorem row128_apply (v : FVec Ideal Cert.KernelIdeal.S128 .f32) (q : Fin 128) :
    row128 v (ix2 (0 : Fin 1) q) = v (ix1 q) :=
  shapeCast_a_1a_apply v _ (0 : Fin 1) q

/-- A vector of length 256 as a row reads, at `(0, l)`, its entry `l`. -/
theorem row256_apply (v : FVec Ideal Cert.KernelIdeal.S256 .f32) (l : Fin 256) :
    row256 v (ix2 (0 : Fin 1) l) = v (ix1 l) :=
  shapeCast_a_1a_apply v _ (0 : Fin 1) l

/-! ## The three kinds of layer, over any input -/

/-- The reference's perceptron stage is the perceptron layer over the rows. -/
theorem mlp_ref (y : FVec Ideal Cert.KernelIdeal.S100000x128 .f32) (w1 : FVec Ideal Cert.KernelIdeal.S128x256 .f32)
    (b1 : FVec Ideal Cert.KernelIdeal.S256 .f32) (w2 : FVec Ideal Cert.KernelIdeal.S256x128 .f32)
    (b2 : FVec Ideal Cert.KernelIdeal.S128 .f32) :
    addf (F := Ideal) (Host.dotGeneral (F := Ideal) dot_S100000x256_S256x128_S100000x128_1_0_0_1_n_n none
        (maximumf (F := Ideal) (addf (F := Ideal) (Host.dotGeneral (F := Ideal) dot_S100000x128_S128x256_S100000x256_1_0_0_1_n_n none y w1)
            (broadcastInDim S100000x256 ![0, 1] bcast_S1x256_S100000x256_0_1 (broadcastInDim S1x256 ![1] bcast_S256_S1x256_1 b1)))
          (broadcastInDim S100000x256 ![] bcast_S_S100000x256 (constant (F := Ideal) S_ .f32 0x00000000#32))) w2)
      (broadcastInDim S100000x128 ![0, 1] bcast_S1x128_S100000x128_0_1 (broadcastInDim S1x128 ![1] bcast_S128_S1x128_1 b2))
    = Cert.GinSpec.mlp (R := 100000) (K := 128) (L := 256) (C := 128) y w1 (row256 b1) w2 (row128 b2) := by
  funext i
  obtain ⟨p, q, rfl⟩ : ∃ (p : Fin 100000) (q : Fin 128), i = ix2 p q := ⟨i 0, i 1, eq_ix2 i⟩
  have e1 : (fun l : Fin 256 => row256 b1 (ix2 (0 : Fin 1) l)) = fun l => b1 (ix1 l) := funext fun l => row256_apply b1 l
  have e2 : (fun q : Fin 128 => row128 b2 (ix2 (0 : Fin 1) q)) = fun q => b2 (ix1 q) := funext fun q => row128_apply b2 q
  rw [Cert.GinSpec.mlp_apply, e1, e2]
  exact Cert.LibRowMLP.mlp_host_apply (R := 100000) (K := 128) (L := 256) (C := 128) _ _ _ _ _ _ _ y w1 b1 w2 b2 p q

/-- The reference's normalisation stage at an entry. -/
theorem norm_ref_apply (h : FVec Ideal Cert.KernelIdeal.S100000x128 .f32) (m r g b : FVec Ideal Cert.KernelIdeal.S128 .f32)
    (p : Fin 100000) (q : Fin 128) :
    addf (F := Ideal) (mulf (F := Ideal) (mulf (F := Ideal)
          (broadcastInDim S100000x128 ![0, 1] bcast_S1x128_S100000x128_0_1 (broadcastInDim S1x128 ![1] bcast_S128_S1x128_1 g))
          (subf (F := Ideal) h (broadcastInDim S100000x128 ![0, 1] bcast_S1x128_S100000x128_0_1 (broadcastInDim S1x128 ![1] bcast_S128_S1x128_1 m))))
        (broadcastInDim S100000x128 ![0, 1] bcast_S1x128_S100000x128_0_1 (broadcastInDim S1x128 ![1] bcast_S128_S1x128_1 r)))
      (broadcastInDim S100000x128 ![0, 1] bcast_S1x128_S100000x128_0_1 (broadcastInDim S1x128 ![1] bcast_S128_S1x128_1 b)) (ix2 p q)
    = Cert.GinSpec.normAt (h (ix2 p q)) (row128 m (ix2 (0 : Fin 1) q)) (row128 r (ix2 (0 : Fin 1) q))
        (row128 g (ix2 (0 : Fin 1) q)) (row128 b (ix2 (0 : Fin 1) q)) := by
  rw [row128_apply, row128_apply, row128_apply, row128_apply]
  refine (addf_apply _ _ _).trans ?_
  rw [rows128_apply b p q]
  refine congrArg (· + b (ix1 q)) ?_
  refine (mulf_apply _ _ _).trans ?_
  rw [rows128_apply r p q]
  refine congrArg (· * r (ix1 q)) ?_
  refine (mulf_apply _ _ _).trans ?_
  rw [rows128_apply g p q]
  refine congrArg (g (ix1 q) * ·) ?_
  refine (subf_apply _ _ _).trans ?_
  rw [rows128_apply m p q]

/-- The reference's normalisation stage is the normalisation's affine map with the statistics as rows. -/
theorem bn_ref (h : FVec Ideal Cert.KernelIdeal.S100000x128 .f32) (g b : FVec Ideal Cert.KernelIdeal.S128 .f32) :
    addf (F := Ideal) (mulf (F := Ideal) (mulf (F := Ideal)
          (broadcastInDim S100000x128 ![0, 1] bcast_S1x128_S100000x128_0_1 (broadcastInDim S1x128 ![1] bcast_S128_S1x128_1 g))
          (subf (F := Ideal) h (broadcastInDim S100000x128 ![0, 1] bcast_S1x128_S100000x128_0_1 (broadcastInDim S1x128 ![1] bcast_S128_S1x128_1 (mean h)))))
        (broadcastInDim S100000x128 ![0, 1] bcast_S1x128_S100000x128_0_1 (broadcastInDim S1x128 ![1] bcast_S128_S1x128_1 (invStd h))))
      (broadcastInDim S100000x128 ![0, 1] bcast_S1x128_S100000x128_0_1 (broadcastInDim S1x128 ![1] bcast_S128_S1x128_1 b))
    = bn h g b := by
  funext i
  obtain ⟨p, q, rfl⟩ : ∃ (p : Fin 100000) (q : Fin 128), i = ix2 p q := ⟨i 0, i 1, eq_ix2 i⟩
  exact norm_ref_apply h (mean h) (invStd h) g b p q

/-- The same followed by the maximum with a broadcast zero is the rectified normalisation. -/
theorem bnRelu_ref (h : FVec Ideal Cert.KernelIdeal.S100000x128 .f32) (g b : FVec Ideal Cert.KernelIdeal.S128 .f32) :
    maximumf (F := Ideal) (addf (F := Ideal) (mulf (F := Ideal) (mulf (F := Ideal)
          (broadcastInDim S100000x128 ![0, 1] bcast_S1x128_S100000x128_0_1 (broadcastInDim S1x128 ![1] bcast_S128_S1x128_1 g))
          (subf (F := Ideal) h (broadcastInDim S100000x128 ![0, 1] bcast_S1x128_S100000x128_0_1 (broadcastInDim S1x128 ![1] bcast_S128_S1x128_1 (mean h)))))
        (broadcastInDim S100000x128 ![0, 1] bcast_S1x128_S100000x128_0_1 (broadcastInDim S1x128 ![1] bcast_S128_S1x128_1 (invStd h))))
      (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
    = bnRelu h g b := by
  funext i
  obtain ⟨p, q, rfl⟩ : ∃ (p : Fin 100000) (q : Fin 128), i = ix2 p q := ⟨i 0, i 1, eq_ix2 i⟩
  refine (maximumf_apply _ _ _).trans ?_
  rw [norm_ref_apply h (mean h) (invStd h) g b p q,
    Cert.LibColumn.bcastInDim_scalar_apply _ bcast_S_S100000x128 (ix2 p q) ix0]
  show max _ (Ideal.ofBits .f32 0x00000000#32) = _
  rw [Ideal.ofBits_zero_f32]
  rfl

/-- The reference's sum over the columns of a product, from zero, is the rows' dot product. -/
theorem dot_ref (a b : FVec Ideal Cert.KernelIdeal.S200000x128 .f32) :
    Host.reduceAdd (F := Ideal) (mulf (F := Ideal) a b) (constant (F := Ideal) S_ .f32 0x00000000#32)
      reducesTo_S200000x128_S200000_d1 h_S_
    = Cert.GinSpec.dotRows (R := 200000) (C := 128) a b := by
  funext i
  obtain ⟨p, rfl⟩ : ∃ p : Fin 200000, i = ix1 p := ⟨i 0, eq_ix1 i⟩
  simp only [Host.reduceAdd, Ideal.hostReduceAdd_def]
  refine (Cert.LibRowMin.hostRowSum_apply (a := 200000) (b := 128) _ _ reducesTo_S200000x128_S200000_d1 (by decide) p).trans ?_
  show Ideal.ofBits .f32 0x00000000#32 + _ = _
  rw [Ideal.ofBits_zero_f32, zero_add]
  rfl

end Rows

/-! ## The reference's layers -/

/-- The first perceptron stage. -/
theorem ref_hid0 : val_main_v23 (F := Ideal) x0 x1 x3 x4 x5 x6 = hid0 x0 x1 x3 x4 x5 x6 := by
  unfold val_main_v23 val_main_v22 val_main_v21 val_main_v20 val_main_v19 val_main_call0_v0 val_main_call0_cst
    val_main_v18 val_main_v17 val_main_v16 val_main_v15
  rw [ref_v14]
  exact mlp_ref _ x3 x4 x5 x6

/-- The first normalisation and rectifier. -/
theorem ref_act0 : val_main_v49 (F := Ideal) x0 x1 x3 x4 x5 x6 x11 x12
    = bnRelu (val_main_v23 (F := Ideal) x0 x1 x3 x4 x5 x6) x11 x12 := by
  unfold val_main_v49 val_main_call1_v0 val_main_call1_cst val_main_v48 val_main_v47 val_main_v46 val_main_v45
    val_main_v44 val_main_v43 val_main_v39 val_main_v38 val_main_v37 val_main_v36 val_main_v35 val_main_v34
  rw [ref_v42, ref_v26]
  generalize val_main_v23 (F := Ideal) x0 x1 x3 x4 x5 x6 = h
  exact bnRelu_ref h x11 x12

/-- The second perceptron stage. -/
theorem ref_hid1 : val_main_v69 (F := Ideal) x0 x1 x3 x4 x5 x6 x7 x8 x9 x10 x11 x12
    = hid1 (val_main_v49 (F := Ideal) x0 x1 x3 x4 x5 x6 x11 x12) x1 x7 x8 x9 x10 := by
  unfold val_main_v69 val_main_v68 val_main_v67 val_main_v66 val_main_v65 val_main_call2_v0 val_main_call2_cst
    val_main_v64 val_main_v63 val_main_v62 val_main_v61
  rw [ref_v60]
  generalize val_main_v49 (F := Ideal) x0 x1 x3 x4 x5 x6 x11 x12 = h
  exact mlp_ref _ x7 x8 x9 x10

/-- The second normalisation. -/
theorem ref_emb : val_main_v94 (F := Ideal) x0 x1 x3 x4 x5 x6 x7 x8 x9 x10 x11 x12 x13 x14
    = bn (val_main_v69 (F := Ideal) x0 x1 x3 x4 x5 x6 x7 x8 x9 x10 x11 x12) x13 x14 := by
  unfold val_main_v94 val_main_v93 val_main_v92 val_main_v91 val_main_v90 val_main_v89 val_main_v85 val_main_v84
    val_main_v83 val_main_v82 val_main_v81 val_main_v80
  rw [ref_v88, ref_v72]
  generalize val_main_v69 (F := Ideal) x0 x1 x3 x4 x5 x6 x7 x8 x9 x10 x11 x12 = h
  exact bn_ref h x13 x14

/-- The candidate edges' scores. -/
theorem ref_score : val_main_v114 (F := Ideal) x0 x1 x2 x3 x4 x5 x6 x7 x8 x9 x10 x11 x12 x13 x14
    = score (val_main_v94 (F := Ideal) x0 x1 x3 x4 x5 x6 x7 x8 x9 x10 x11 x12 x13 x14) x2 := by
  unfold val_main_v114 val_main_v113 val_main_cst_18
  rw [ref_v103, ref_v112]
  generalize val_main_v94 (F := Ideal) x0 x1 x3 x4 x5 x6 x7 x8 x9 x10 x11 x12 x13 x14 = z
  exact dot_ref _ _

/-- THE REFERENCE COMPUTES THE NETWORK. -/
theorem ref_net : val_main_v114 (F := Ideal) x0 x1 x2 x3 x4 x5 x6 x7 x8 x9 x10 x11 x12 x13 x14
    = net x0 x1 x2 x3 x4 x5 x6 x7 x8 x9 x10 x11 x12 x13 x14 := by
  rw [ref_score, ref_emb, ref_hid1, ref_act0, ref_hid0]
  rfl

end Cert.ReferenceIdeal.Bridge

end
-- ==== Proof.lean ====
/-
  The kernel program and its reference compute one function on the extended reals.

  Both programs are a two-layer graph network on 100000 nodes followed by an edge decoder: each layer adds to a node's
  row the rows of its in-neighbours (a gather and a scatter-add over 600000 edges), sends every row through a two-layer
  perceptron with a rectifier, and normalises every column by its mean and its reciprocal standard deviation over the
  nodes (the first layer then rectifies); the decoder takes, for each of 200000 candidate edges, the dot product of the
  two endpoint rows.  The kernel program runs the perceptrons, the normalisations' affine maps and the dot products as
  five kernel launches over blocks of rows, with the aggregation, the column statistics and the endpoint gathers as host
  operations between them; the reference is host operations throughout.

  On the extended reals a change of float format is the identity, a matrix product into a zero accumulator and the
  host's product are the same finite sum, a lane sum and the host's sum are the same finite sum, and neither the
  blocking of the rows nor the row form of a bias or of a column statistic changes an entry.  So each launch's array is
  the corresponding layer (Spec.lean) of the arrays the launch finds, entry by entry, and so is the reference's stage;
  the host operations the two programs share are the same functions (Shared.lean) and are never opened.  Both results
  are `Net.net` of the arguments.  No finiteness is used: the two sides are the same expression, spelt differently, and
  the precondition is never opened.

  * the three frames: the two kernel programs' are the launch-by-launch frame proofs; the reference's is its run with
    the result dropped;
  * `preserves`: the idealization rewrote nothing;
  * `algebraic`: the kernel's run with its result named (KRun.lean) read segment by segment (KChain.lean), against the
    reference's run read stage by stage (RNet.lean).
-/
import proofs.«108490_j24395414241389_1_alg».proof.Defs
import proofs.«108490_j24395414241389_1_alg».proof.Proof.Gen.Kernel
import proofs.«108490_j24395414241389_1_alg».proof.Proof.Gen.Kernel.Frame
import proofs.«108490_j24395414241389_1_alg».proof.Proof.Gen.KernelIdeal
import proofs.«108490_j24395414241389_1_alg».proof.Proof.Gen.KernelIdeal.Frame
import proofs.«108490_j24395414241389_1_alg».proof.Proof.Gen.ReferenceIdeal
import proofs.«108490_j24395414241389_1_alg».proof.Proof.Gen.Pre_finite_inputs
import proofs.«108490_j24395414241389_1_alg».proof.Proof.Gen.ReferenceIdeal.Run
import proofs.«108490_j24395414241389_1_alg».proof.Proof.Gen.ReferenceIdeal.Read
import proofs.«108490_j24395414241389_1_alg».proof.Proof.KRun
import proofs.«108490_j24395414241389_1_alg».proof.Proof.KChain
import proofs.«108490_j24395414241389_1_alg».proof.Proof.RNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the network of the arguments in the result buffer, and the arguments agree. -/
theorem algebraic : Cert.algebraic_KernelIdeal_ReferenceIdeal := by
  intro m g m' g' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (Cert.KernelIdeal.Chain.result m g c), (h c).2⟩)
      (Cert.KernelIdeal.Named.run_named (F := Ideal) m g)
  · refine (θ_run Cert.ReferenceIdeal.defs _ _).mono (fun r h c => ⟨?_, (h c).2⟩)
      (Cert.ReferenceIdeal.Value.run (F := Ideal) m' g')
    obtain ⟨e0, e1, e2, e3, e4, e5, e6, e7, e8, e9, e10, e11, e12, e13, e14⟩ := hagree c
    refine (h c).1.trans ((Cert.ReferenceIdeal.Read.val_main_v114_eq m' c).trans ?_)
    rw [e0, e1, e2, e3, e4, e5, e6, e7, e8, e9, e10, e11, e12, e13, e14]
    exact Cert.ReferenceIdeal.Bridge.ref_net _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
